-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_v49) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512x64 : Shape := ⟨3, ![64, 512, 64]⟩
abbrev S64x512x512 : Shape := ⟨3, ![64, 512, 512]⟩
abbrev S64x512 : Shape := ⟨2, ![64, 512]⟩
abbrev S512x512 : Shape := ⟨2, ![512, 512]⟩
abbrev S_ : Shape := ⟨0, ![]⟩

class Facts : Prop where
  bcast_S_S64x512x64 : S_.BroadcastsInDim S64x512x64 (![] : Fin 0 → Fin S64x512x64.rank)
  reducesTo_S64x512x64_S_d0_1_2 : S64x512x64.ReducesTo [0, 1, 2] S_
  h_S_ : 0 < S_.numel
  bcast_S_S64x512x512 : S_.BroadcastsInDim S64x512x512 (![] : Fin 0 → Fin S64x512x512.rank)
  reducesTo_S64x512x512_S_d0_1_2 : S64x512x512.ReducesTo [0, 1, 2] S_
  bcast_S_S64x512 : S_.BroadcastsInDim S64x512 (![] : Fin 0 → Fin S64x512.rank)
  reducesTo_S64x512_S_d0_1 : S64x512.ReducesTo [0, 1] S_
  bcast_S_S512x512 : S_.BroadcastsInDim S512x512 (![] : Fin 0 → Fin S512x512.rank)
  reducesTo_S512x512_S_d0_1 : S512x512.ReducesTo [0, 1] S_

variable [Facts]

def fn_part4 {F : FTy → Type} [FloatOps F] (main_arg14 : FVec F S512x512 .f32) (main_v63 : IVec S_ 1) (main_v67 : IVec S_ 1) : IVec S_ 1 :=
  let main_v68 : IVec S_ 1 := andi main_v63 main_v67
  let main_v69 : FVec F S512x512 .f32 := Host.absf main_arg14
  let main_cst_26 : FVec F S_ .f32 := constant S_ .f32 0x7F800000#32
  let main_v70 : FVec F S512x512 .f32 := broadcastInDim S512x512 ![] bcast_S_S512x512 main_cst_26
  let main_v71 : IVec S512x512 1 := cmpf .olt main_v69 main_v70
  let main_c_27 : IVec S_ 1 := constantI S_ 1 1#1
  let main_v72 : IVec S_ 1 := (fun x v => Host.reduce IntOp.andi x v reducesTo_S512x512_S_d0_1 h_S_) main_v71 main_c_27
  let main_v73 : IVec S_ 1 := andi main_v68 main_v72
  main_v73

def fn_part3 {F : FTy → Type} [FloatOps F] (main_arg11 : FVec F S512x512 .f32) (main_arg12 : FVec F S64x512 .f32) (main_arg13 : FVec F S512x512 .f32) (main_arg14 : FVec F S512x512 .f32) (main_v48 : IVec S_ 1) (main_v49 : FVec F S512x512 .f32) (main_v50 : FVec F S512x512 .f32) : IVec S_ 1 :=
  let main_v51 : IVec S512x512 1 := cmpf .olt main_v49 main_v50
  let main_c_19 : IVec S_ 1 := constantI S_ 1 1#1
  let main_v52 : IVec S_ 1 := (fun x v => Host.reduce IntOp.andi x v reducesTo_S512x512_S_d0_1 h_S_) main_v51 main_c_19
  let main_v53 : IVec S_ 1 := andi main_v48 main_v52
  let main_v54 : FVec F S512x512 .f32 := Host.absf main_arg11
  let main_cst_20 : FVec F S_ .f32 := constant S_ .f32 0x7F800000#32
  let main_v55 : FVec F S512x512 .f32 := broadcastInDim S512x512 ![] bcast_S_S512x512 main_cst_20
  let main_v56 : IVec S512x512 1 := cmpf .olt main_v54 main_v55
  let main_c_21 : IVec S_ 1 := constantI S_ 1 1#1
  let main_v57 : IVec S_ 1 := (fun x v => Host.reduce IntOp.andi x v reducesTo_S512x512_S_d0_1 h_S_) main_v56 main_c_21
  let main_v58 : IVec S_ 1 := andi main_v53 main_v57
  let main_v59 : FVec F S64x512 .f32 := Host.absf main_arg12
  let main_cst_22 : FVec F S_ .f32 := constant S_ .f32 0x7F800000#32
  let main_v60 : FVec F S64x512 .f32 := broadcastInDim S64x512 ![] bcast_S_S64x512 main_cst_22
  let main_v61 : IVec S64x512 1 := cmpf .olt main_v59 main_v60
  let main_c_23 : IVec S_ 1 := constantI S_ 1 1#1
  let main_v62 : IVec S_ 1 := (fun x v => Host.reduce IntOp.andi x v reducesTo_S64x512_S_d0_1 h_S_) main_v61 main_c_23
  let main_v63 : IVec S_ 1 := andi main_v58 main_v62
  let main_v64 : FVec F S512x512 .f32 := Host.absf main_arg13
  let main_cst_24 : FVec F S_ .f32 := constant S_ .f32 0x7F800000#32
  let main_v65 : FVec F S512x512 .f32 := broadcastInDim S512x512 ![] bcast_S_S512x512 main_cst_24
  let main_v66 : IVec S512x512 1 := cmpf .olt main_v64 main_v65
  let main_c_25 : IVec S_ 1 := constantI S_ 1 1#1
  let main_v67 : IVec S_ 1 := (fun x v => Host.reduce IntOp.andi x v reducesTo_S512x512_S_d0_1 h_S_) main_v66 main_c_25
  fn_part4 (F := F) main_arg14 main_v63 main_v67

def fn_part2 {F : FTy → Type} [FloatOps F] (main_arg7 : FVec F S512x512 .f32) (main_arg8 : FVec F S512x512 .f32) (main_arg9 : FVec F S64x512 .f32) (main_arg10 : FVec F S512x512 .f32) (main_arg11 : FVec F S512x512 .f32) (main_arg12 : FVec F S64x512 .f32) (main_arg13 : FVec F S512x512 .f32) (main_arg14 : FVec F S512x512 .f32) (main_v33 : IVec S_ 1) : IVec S_ 1 :=
  let main_v34 : FVec F S512x512 .f32 := Host.absf main_arg7
  let main_cst_12 : FVec F S_ .f32 := constant S_ .f32 0x7F800000#32
  let main_v35 : FVec F S512x512 .f32 := broadcastInDim S512x512 ![] bcast_S_S512x512 main_cst_12
  let main_v36 : IVec S512x512 1 := cmpf .olt main_v34 main_v35
  let main_c_13 : IVec S_ 1 := constantI S_ 1 1#1
  let main_v37 : IVec S_ 1 := (fun x v => Host.reduce IntOp.andi x v reducesTo_S512x512_S_d0_1 h_S_) main_v36 main_c_13
  let main_v38 : IVec S_ 1 := andi main_v33 main_v37
  let main_v39 : FVec F S512x512 .f32 := Host.absf main_arg8
  let main_cst_14 : FVec F S_ .f32 := constant S_ .f32 0x7F800000#32
  let main_v40 : FVec F S512x512 .f32 := broadcastInDim S512x512 ![] bcast_S_S512x512 main_cst_14
  let main_v41 : IVec S512x512 1 := cmpf .olt main_v39 main_v40
  let main_c_15 : IVec S_ 1 := constantI S_ 1 1#1
  let main_v42 : IVec S_ 1 := (fun x v => Host.reduce IntOp.andi x v reducesTo_S512x512_S_d0_1 h_S_) main_v41 main_c_15
  let main_v43 : IVec S_ 1 := andi main_v38 main_v42
  let main_v44 : FVec F S64x512 .f32 := Host.absf main_arg9
  let main_cst_16 : FVec F S_ .f32 := constant S_ .f32 0x7F800000#32
  let main_v45 : FVec F S64x512 .f32 := broadcastInDim S64x512 ![] bcast_S_S64x512 main_cst_16
  let main_v46 : IVec S64x512 1 := cmpf .olt main_v44 main_v45
  let main_c_17 : IVec S_ 1 := constantI S_ 1 1#1
  let main_v47 : IVec S_ 1 := (fun x v => Host.reduce IntOp.andi x v reducesTo_S64x512_S_d0_1 h_S_) main_v46 main_c_17
  let main_v48 : IVec S_ 1 := andi main_v43 main_v47
  let main_v49 : FVec F S512x512 .f32 := Host.absf main_arg10
  let main_cst_18 : FVec F S_ .f32 := constant S_ .f32 0x7F800000#32
  let main_v50 : FVec F S512x512 .f32 := broadcastInDim S512x512 ![] bcast_S_S512x512 main_cst_18
  fn_part3 (F := F) main_arg11 main_arg12 main_arg13 main_arg14 main_v48 main_v49 main_v50

def fn_part1 {F : FTy → Type} [FloatOps F] (main_arg4 : FVec F S512x512 .f32) (main_arg5 : FVec F S512x512 .f32) (main_arg6 : FVec F S64x512 .f32) (main_arg7 : FVec F S512x512 .f32) (main_arg8 : FVec F S512x512 .f32) (main_arg9 : FVec F S64x512 .f32) (main_arg10 : FVec F S512x512 .f32) (main_arg11 : FVec F S512x512 .f32) (main_arg12 : FVec F S64x512 .f32) (main_arg13 : FVec F S512x512 .f32) (main_arg14 : FVec F S512x512 .f32) (main_v13 : IVec S_ 1) (main_v16 : IVec S64x512 1) : IVec S_ 1 :=
  let main_c_5 : IVec S_ 1 := constantI S_ 1 1#1
  let main_v17 : IVec S_ 1 := (fun x v => Host.reduce IntOp.andi x v reducesTo_S64x512_S_d0_1 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512x512 .f32 := Host.absf main_arg5
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  let main_v29 : FVec F S64x512 .f32 := Host.absf main_arg6
  let main_cst_10 : FVec F S_ .f32 := constant S_ .f32 0x7F800000#32
  let main_v30 : FVec F S64x512 .f32 := broadcastInDim S64x512 ![] bcast_S_S64x512 main_cst_10
  let main_v31 : IVec S64x512 1 := cmpf .olt main_v29 main_v30
  let main_c_11 : IVec S_ 1 := constantI S_ 1 1#1
  let main_v32 : IVec S_ 1 := (fun x v => Host.reduce IntOp.andi x v reducesTo_S64x512_S_d0_1 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S64x512x64 .f32) (main_arg1 : FVec F S64x512x512 .f32) (main_arg2 : FVec F S64x512x512 .f32) (main_arg3 : FVec F S64x512 .f32) (main_arg4 : FVec F S512x512 .f32) (main_arg5 : FVec F S512x512 .f32) (main_arg6 : FVec F S64x512 .f32) (main_arg7 : FVec F S512x512 .f32) (main_arg8 : FVec F S512x512 .f32) (main_arg9 : FVec F S64x512 .f32) (main_arg10 : FVec F S512x512 .f32) (main_arg11 : FVec F S512x512 .f32) (main_arg12 : FVec F S64x512 .f32) (main_arg13 : FVec F S512x512 .f32) (main_arg14 : FVec F S512x512 .f32) : IVec S_ 1 :=
  let main_v0 : FVec F S64x512x64 .f32 := Host.absf main_arg0
  let main_cst : FVec F S_ .f32 := constant S_ .f32 0x7F800000#32
  let main_v1 : FVec F S64x512x64 .f32 := broadcastInDim S64x512x64 ![] bcast_S_S64x512x64 main_cst
  let main_v2 : IVec S64x512x64 1 := cmpf .olt main_v0 main_v1
  let main_c : IVec S_ 1 := constantI S_ 1 1#1
  let main_v3 : IVec S_ 1 := (fun x v => Host.reduce IntOp.andi x v reducesTo_S64x512x64_S_d0_1_2 h_S_) main_v2 main_c
  let main_v4 : FVec F S64x512x512 .f32 := Host.absf main_arg1
  let main_cst_0 : FVec F S_ .f32 := constant S_ .f32 0x7F800000#32
  let main_v5 : FVec F S64x512x512 .f32 := broadcastInDim S64x512x512 ![] bcast_S_S64x512x512 main_cst_0
  let main_v6 : IVec S64x512x512 1 := cmpf .olt main_v4 main_v5
  let main_c_1 : IVec S_ 1 := constantI S_ 1 1#1
  let main_v7 : IVec S_ 1 := (fun x v => Host.reduce IntOp.andi x v reducesTo_S64x512x512_S_d0_1_2 h_S_) main_v6 main_c_1
  let main_v8 : IVec S_ 1 := andi main_v3 main_v7
  let main_v9 : FVec F S64x512x512 .f32 := Host.absf main_arg2
  let main_cst_2 : FVec F S_ .f32 := constant S_ .f32 0x7F800000#32
  let main_v10 : FVec F S64x512x512 .f32 := broadcastInDim S64x512x512 ![] bcast_S_S64x512x512 main_cst_2
  let main_v11 : IVec S64x512x512 1 := cmpf .olt main_v9 main_v10
  let main_c_3 : IVec S_ 1 := constantI S_ 1 1#1
  let main_v12 : IVec S_ 1 := (fun x v => Host.reduce IntOp.andi x v reducesTo_S64x512x512_S_d0_1_2 h_S_) main_v11 main_c_3
  let main_v13 : IVec S_ 1 := andi main_v8 main_v12
  let main_v14 : FVec F S64x512 .f32 := Host.absf main_arg3
  let main_cst_4 : FVec F S_ .f32 := constant S_ .f32 0x7F800000#32
  let main_v15 : FVec F S64x512 .f32 := broadcastInDim S64x512 ![] bcast_S_S64x512 main_cst_4
  let main_v16 : IVec S64x512 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S64x512x64 : Shape := ⟨3, ![64, 512, 64]⟩
abbrev S64x512x512 : Shape := ⟨3, ![64, 512, 512]⟩
abbrev S64x512 : Shape := ⟨2, ![64, 512]⟩
abbrev S512x512 : Shape := ⟨2, ![512, 512]⟩
abbrev S64x2048 : Shape := ⟨2, ![64, 2048]⟩
abbrev S512x2048 : Shape := ⟨2, ![512, 2048]⟩
abbrev S1x512x64 : Shape := ⟨3, ![1, 512, 64]⟩
abbrev S1x512x512 : Shape := ⟨3, ![1, 512, 512]⟩
abbrev S512x64 : Shape := ⟨2, ![512, 64]⟩

abbrev nBuf : Space → Nat
  | .hbm => 22
  | .vmem => 13
  | .smem => 0
  | _ => 0

abbrev bufTy : (tb : Table) → Fin (tcTables nBuf tb) → BufTy
  | .hbm, ⟨0, _⟩ => ⟨S64x512x64, .f32⟩
  | .hbm, ⟨1, _⟩ => ⟨S64x512x512, .f32⟩
  | .hbm, ⟨2, _⟩ => ⟨S64x512x512, .f32⟩
  | .hbm, ⟨3, _⟩ => ⟨S64x512, .f32⟩
  | .hbm, ⟨4, _⟩ => ⟨S512x512, .f32⟩
  | .hbm, ⟨5, _⟩ => ⟨S512x512, .f32⟩
  | .hbm, ⟨6, _⟩ => ⟨S64x512, .f32⟩
  | .hbm, ⟨7, _⟩ => ⟨S512x512, .f32⟩
  | .hbm, ⟨8, _⟩ => ⟨S512x512, .f32⟩
  | .hbm, ⟨9, _⟩ => ⟨S64x512, .f32⟩
  | .hbm, ⟨10, _⟩ => ⟨S512x512, .f32⟩
  | .hbm, ⟨11, _⟩ => ⟨S512x512, .f32⟩
  | .hbm, ⟨12, _⟩ => ⟨S64x512, .f32⟩
  | .hbm, ⟨13, _⟩ => ⟨S512x512, .f32⟩
  | .hbm, ⟨14, _⟩ => ⟨S512x512, .f32⟩
  | .hbm, ⟨15, _⟩ => ⟨S64x2048, .f32⟩
  | .hbm, ⟨16, _⟩ => ⟨S64x2048, .bf16⟩
  | .hbm, ⟨17, _⟩ => ⟨S512x2048, .f32⟩
  | .hbm, ⟨18, _⟩ => ⟨S512x2048, .bf16⟩
  | .hbm, ⟨19, _⟩ => ⟨S512x2048, .f32⟩
  | .hbm, ⟨20, _⟩ => ⟨S64x512x512, .f32⟩
  | .hbm, ⟨21, _⟩ => ⟨S64x512x512, .f32⟩
  | .local _ .vmem, ⟨0, _⟩ => ⟨S1x512x64, .f32⟩
  | .local _ .vmem, ⟨1, _⟩ => ⟨S1x512x64, .f32⟩
  | .local _ .vmem, ⟨2, _⟩ => ⟨S1x512x512, .f32⟩
  | .local _ .vmem, ⟨3, _⟩ => ⟨S1x512x512, .f32⟩
  | .local _ .vmem, ⟨4, _⟩ => ⟨S1x512x512, .f32⟩
  | .local _ .vmem, ⟨5, _⟩ => ⟨S1x512x512, .f32⟩
  | .local _ .vmem, ⟨6, _⟩ => ⟨S64x2048, .bf16⟩
  | .local _ .vmem, ⟨7, _⟩ => ⟨S512x2048, .bf16⟩
  | .local _ .vmem, ⟨8, _⟩ => ⟨S512x2048, .f32⟩
  | .local _ .vmem, ⟨9, _⟩ => ⟨S1x512x512, .f32⟩
  | .local _ .vmem, ⟨10, _⟩ => ⟨S1x512x512, .f32⟩
  | .local _ .vmem, ⟨11, _⟩ => ⟨S1x512x512, .f32⟩
  | .local _ .vmem, ⟨12, _⟩ => ⟨S1x512x512, .f32⟩
  | _, _ => ⟨S64x512x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5_0 : Ref sig .tc := ⟨.hbm, 20, rfl⟩
abbrev main_v5_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  concatenates_S64x512_S64x512_S64x512_S64x512_S64x2048_d1 : Shape.Concatenates [S64x512, S64x512, S64x512, S64x512] S64x2048 1
  bitsLt_bf16_f32 : FTy.bits .bf16 < FTy.bits .f32
  concatenates_S512x512_S512x512_S512x512_S512x512_S512x2048_d1 : Shape.Concatenates [S512x512, S512x512, S512x512, S512x512] S512x2048 1
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  inb_S64x2048_S64x512_0_0 : ∀ a, (![0, 0] : Fin 2 → Nat) a + S64x512.size a ≤ S64x2048.size a
  h_S64x512 : 0 < S64x512.numel
  shapeCasts_S64x512_S64x512 : S64x512.ShapeCasts S64x512
  inb_S512x2048_S512x512_0_0 : ∀ a, (![0, 0] : Fin 2 → Nat) a + S512x512.size a ≤ S512x2048.size a
  h_S512x512 : 0 < S512x512.numel
  shapeCasts_S512x512_S512x512 : S512x512.ShapeCasts S512x512
  inb_S64x2048_S64x512_0_512 : ∀ a, (![0, 512] : Fin 2 → Nat) a + S64x512.size a ≤ S64x2048.size a
  inb_S512x2048_S512x512_0_512 : ∀ a, (![0, 512] : Fin 2 → Nat) a + S512x512.size a ≤ S512x2048.size a
  inb_S64x2048_S64x512_0_1024 : ∀ a, (![0, 1024] : Fin 2 → Nat) a + S64x512.size a ≤ S64x2048.size a
  inb_S512x2048_S512x512_0_1024 : ∀ a, (![0, 1024] : Fin 2 → Nat) a + S512x512.size a ≤ S512x2048.size a
  inb_S64x2048_S64x512_0_1536 : ∀ a, (![0, 1536] : Fin 2 → Nat) a + S64x512.size a ≤ S64x2048.size a
  inb_S512x2048_S512x512_0_1536 : ∀ a, (![0, 1536] : Fin 2 → Nat) a + S512x512.size a ≤ S512x2048.size a
  shapeCasts_S512x512_S1x512x512 : S512x512.ShapeCasts S1x512x512
  dot_S512x64_S64x512_S512x512_1_0_0_1_n_n_wf : DotDims.WF S512x64 S64x512 S512x512 [1] [0] [0] [1] [] []
  dot_S512x512_S512x512_S512x512_1_0_0_1_n_n_wf : DotDims.WF S512x512 S512x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x64.size a ≤ S64x512x64.size a
  hwx0_0 : ∀ i : grid0.Coords, EltTy.bits .f32 = 32 ∨ (Rect.block (s := S64x512x64) S1x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x512.size a ≤ S64x512x512.size a
  hwx0_1 : ∀ i : grid0.Coords, EltTy.bits .f32 = 32 ∨ (Rect.block (s := S64x512x512) S1x512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x512.size a ≤ S64x512x512.size a
  hwx0_2 : ∀ i : grid0.Coords, EltTy.bits .f32 = 32 ∨ (Rect.block (s := S64x512x512) S1x512x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x2048.size a ≤ S64x2048.size a
  hwx0_3 : ∀ i : grid0.Coords, EltTy.bits .bf16 = 32 ∨ (Rect.block (s := S64x2048) S64x2048.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x2048.size a ≤ S512x2048.size a
  hwx0_4 : ∀ i : grid0.Coords, EltTy.bits .bf16 = 32 ∨ (Rect.block (s := S512x2048) S512x2048.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x2048.size a ≤ S512x2048.size a
  hwx0_5 : ∀ i : grid0.Coords, EltTy.bits .f32 = 32 ∨ (Rect.block (s := S512x2048) S512x2048.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x512x512.size a ≤ S64x512x512.size a
  hwx0_6 : ∀ i : grid0.Coords, EltTy.bits .f32 = 32 ∨ (Rect.block (s := S64x512x512) S1x512x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x512x512.size a ≤ S64x512x512.size a
  hwx0_7 : ∀ i : grid0.Coords, EltTy.bits .f32 = 32 ∨ (Rect.block (s := S64x512x512) S1x512x512.size (cc0_transform_7 i) (hinb0_7 i)).WholeWords (EltTy.packing .f32)

variable [Facts₀]

def dot_S512x64_S64x512_S512x512_1_0_0_1_n_n : DotDims S512x64 S64x512 S512x512 where
  lhsContracting := [1]
  rhsContracting := [0]
  lhsNonContracting := [0]
  rhsNonContracting := [1]
  lhsBatch := []
  rhsBatch := []
  wf := dot_S512x64_S64x512_S512x512_1_0_0_1_n_n_wf
def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf

abbrev win0_0 : Pipeline.Window sig grid0 :=
  Pipeline.Window.ofSpec (Memref.whole main_arg0) S1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S64x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S512x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S512x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5_0) S1x512x512.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v5_1) S1x512x512.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S64x512x64 : Shape := ⟨3, ![64, 512, 64]⟩
abbrev S64x512x512 : Shape := ⟨3, ![64, 512, 512]⟩
abbrev S64x512 : Shape := ⟨2, ![64, 512]⟩
abbrev S512x512 : Shape := ⟨2, ![512, 512]⟩
abbrev S32768x64 : Shape := ⟨2, ![32768, 64]⟩
abbrev S32768x512 : Shape := ⟨2, ![32768, 512]⟩
abbrev S64x2048 : Shape := ⟨2, ![64, 2048]⟩
abbrev S512x2048 : Shape := ⟨2, ![512, 2048]⟩
abbrev S32768x2048 : Shape := ⟨2, ![32768, 2048]⟩
abbrev S64x512x4x512 : Shape := ⟨4, ![64, 512, 4, 512]⟩
abbrev S64x512x1x512 : Shape := ⟨4, ![64, 512, 1, 512]⟩
abbrev S1x512x512 : Shape := ⟨3, ![1, 512, 512]⟩
abbrev S_ : Shape := ⟨0, ![]⟩

abbrev nBuf : Space → Nat
  | .hbm => 73
  | .vmem => 0
  | .smem => 0
  | _ => 0

abbrev bufTy : (tb : Table) → Fin (tcTables nBuf tb) → BufTy
  | .hbm, ⟨0, _⟩ => ⟨S64x512x64, .f32⟩
  | .hbm, ⟨1, _⟩ => ⟨S64x512x512, .f32⟩
  | .hbm, ⟨2, _⟩ => ⟨S64x512x512, .f32⟩
  | .hbm, ⟨3, _⟩ => ⟨S64x512, .f32⟩
  | .hbm, ⟨4, _⟩ => ⟨S512x512, .f32⟩
  | .hbm, ⟨5, _⟩ => ⟨S512x512, .f32⟩
  | .hbm, ⟨6, _⟩ => ⟨S64x512, .f32⟩
  | .hbm, ⟨7, _⟩ => ⟨S512x512, .f32⟩
  | .hbm, ⟨8, _⟩ => ⟨S512x512, .f32⟩
  | .hbm, ⟨9, _⟩ => ⟨S64x512, .f32⟩
  | .hbm, ⟨10, _⟩ => ⟨S512x512, .f32⟩
  | .hbm, ⟨11, _⟩ => ⟨S512x512, .f32⟩
  | .hbm, ⟨12, _⟩ => ⟨S64x512, .f32⟩
  | .hbm, ⟨13, _⟩ => ⟨S512x512, .f32⟩
  | .hbm, ⟨14, _⟩ => ⟨S512x512, .f32⟩
  | .hbm, ⟨15, _⟩ => ⟨S32768x64, .f32⟩
  | .hbm, ⟨16, _⟩ => ⟨S32768x512, .f32⟩
  | .hbm, ⟨17, _⟩ => ⟨S64x2048, .f32⟩
  | .hbm, ⟨18, _⟩ => ⟨S512x2048, .f32⟩
  | .hbm, ⟨19, _⟩ => ⟨S32768x2048, .f32⟩
  | .hbm, ⟨20, _⟩ => ⟨S32768x2048, .f32⟩
  | .hbm, ⟨21, _⟩ => ⟨S32768x2048, .f32⟩
  | .hbm, ⟨22, _⟩ => ⟨S64x512x4x512, .f32⟩
  | .hbm, ⟨23, _⟩ => ⟨S64x512x1x512, .f32⟩
  | .hbm, ⟨24, _⟩ => ⟨S64x512x512, .f32⟩
  | .hbm, ⟨25, _⟩ => ⟨S1x512x512, .f32⟩
  | .hbm, ⟨26, _⟩ => ⟨S64x512x512, .f32⟩
  | .hbm, ⟨27, _⟩ => ⟨S64x512x512, .f32⟩
  | .hbm, ⟨28, _⟩ => ⟨S64x512x1x512, .f32⟩
  | .hbm, ⟨29, _⟩ => ⟨S64x512x512, .f32⟩
  | .hbm, ⟨30, _⟩ => ⟨S1x512x512, .f32⟩
  | .hbm, ⟨31, _⟩ => ⟨S64x512x512, .f32⟩
  | .hbm, ⟨32, _⟩ => ⟨S64x512x512, .f32⟩
  | .hbm, ⟨33, _⟩ => ⟨S64x512x1x512, .f32⟩
  | .hbm, ⟨34, _⟩ => ⟨S64x512x512, .f32⟩
  | .hbm, ⟨35, _⟩ => ⟨S1x512x512, .f32⟩
  | .hbm, ⟨36, _⟩ => ⟨S64x512x512, .f32⟩
  | .hbm, ⟨37, _⟩ => ⟨S64x512x512, .f32⟩
  | .hbm, ⟨38, _⟩ => ⟨S64x512x1x512, .f32⟩
  | .hbm, ⟨39, _⟩ => ⟨S64x512x512, .f32⟩
  | .hbm, ⟨40, _⟩ => ⟨S1x512x512, .f32⟩
  | .hbm, ⟨41, _⟩ => ⟨S64x512x512, .f32⟩
  | .hbm, ⟨42, _⟩ => ⟨S64x512x512, .f32⟩
  | .hbm, ⟨43, _⟩ => ⟨S64x512x512, .f32⟩
  | .hbm, ⟨44, _⟩ => ⟨S64x512x512, .f32⟩
  | .hbm, ⟨45, _⟩ => ⟨S_, .f32⟩
  | .hbm, ⟨46, _⟩ => ⟨S64x512x512, .f32⟩
  | .hbm, ⟨47, _⟩ => ⟨S64x512x512, .f32⟩
  | .hbm, ⟨48, _⟩ => ⟨S_, .f32⟩
  | .hbm, ⟨49, _⟩ => ⟨S64x512x512, .f32⟩
  | .hbm, ⟨50, _⟩ => ⟨S64x512x512, .f32⟩
  | .hbm, ⟨51, _⟩ => ⟨S64x512x512, .f32⟩
  | .hbm, ⟨52, _⟩ => ⟨S64x512x512, .f32⟩
  | .hbm, ⟨53, _⟩ => ⟨S_, .f32⟩
  | .hbm, ⟨54, _⟩ => ⟨S64x512x512, .f32⟩
  | .hbm, ⟨55, _⟩ => ⟨S64x512x512, .f32⟩
  | .hbm, ⟨56, _⟩ => ⟨S_, .f32⟩
  | .hbm, ⟨57, _⟩ => ⟨S64x512x512, .f32⟩
  | .hbm, ⟨58, _⟩ => ⟨S64x512x512, .f32⟩
  | .hbm, ⟨59, _⟩ => ⟨S64x512x512, .f32⟩
  | .hbm, ⟨60, _⟩ => ⟨S64x512x512, .f32⟩
  | .hbm, ⟨61, _⟩ => ⟨S_, .f32⟩
  | .hbm, ⟨62, _⟩ => ⟨S64x512x512, .f32⟩
  | .hbm, ⟨63, _⟩ => ⟨S64x512x512, .f32⟩
  | .hbm, ⟨64, _⟩ => ⟨S_, .f32⟩
  | .hbm, ⟨65, _⟩ => ⟨S64x512x512, .f32⟩
  | .hbm, ⟨66, _⟩ => ⟨S64x512x512, .f32⟩
  | .hbm, ⟨67, _⟩ => ⟨S64x512x512, .f32⟩
  | .hbm, ⟨68, _⟩ => ⟨S64x512x512, .f32⟩
  | .hbm, ⟨69, _⟩ => ⟨S64x512x512, .f32⟩
  | .hbm, ⟨70, _⟩ => ⟨S64x512x512, .f32⟩
  | .hbm, ⟨71, _⟩ => ⟨S64x512x512, .f32⟩
  | .hbm, ⟨72, _⟩ => ⟨S64x512x512, .f32⟩
  | _, _ => ⟨S64x512x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst : Ref sig .tc := ⟨.hbm, 45, rfl⟩
abbrev main_v30 : Ref sig .tc := ⟨.hbm, 46, rfl⟩
abbrev main_v31 : Ref sig .tc := ⟨.hbm, 47, rfl⟩
abbrev main_cst_0 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_1 : Ref sig .tc := ⟨.hbm, 53, rfl⟩
abbrev main_v36 : Ref sig .tc := ⟨.hbm, 54, rfl⟩
abbrev main_v37 : Ref sig .tc := ⟨.hbm, 55, rfl⟩
abbrev main_cst_2 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_3 : Ref sig .tc := ⟨.hbm, 61, rfl⟩
abbrev main_v42 : Ref sig .tc := ⟨.hbm, 62, rfl⟩
abbrev main_v43 : Ref sig .tc := ⟨.hbm, 63, rfl⟩
abbrev main_cst_4 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩

abbrev nD : Nat := 1
abbrev τ : Topo := Topo.v7x

variable {F : FTy → Type} [FloatOps F]

class Facts₀ : Prop where
  shapeCasts_S64x512x64_S32768x64 : S64x512x64.ShapeCasts S32768x64
  shapeCasts_S64x512x512_S32768x512 : S64x512x512.ShapeCasts S32768x512
  concatenates_S64x512_S64x512_S64x512_S64x512_S64x2048_d1 : Shape.Concatenates [S64x512, S64x512, S64x512, S64x512] S64x2048 1
  concatenates_S512x512_S512x512_S512x512_S512x512_S512x2048_d1 : Shape.Concatenates [S512x512, S512x512, S512x512, S512x512] S512x2048 1
  shapeCasts_S32768x2048_S64x512x4x512 : S32768x2048.ShapeCasts S64x512x4x512
  slices_S64x512x4x512_S64x512x1x512_0_0_0_0 : S64x512x4x512.Slices ![0, 0, 0, 0] S64x512x1x512
  shapeCasts_S64x512x1x512_S64x512x512 : S64x512x1x512.ShapeCasts S64x512x512
  bcast_S512x512_S1x512x512_1_2 : S512x512.BroadcastsInDim S1x512x512 (![1, 2] : Fin 2 → Fin S1x512x512.rank)
  bcast_S1x512x512_S64x512x512_0_1_2 : S1x512x512.BroadcastsInDim S64x512x512 (![0, 1, 2] : Fin 3 → Fin S64x512x512.rank)
  slices_S64x512x4x512_S64x512x1x512_0_0_1_0 : S64x512x4x512.Slices ![0, 0, 1, 0] S64x512x1x512
  slices_S64x512x4x512_S64x512x1x512_0_0_2_0 : S64x512x4x512.Slices ![0, 0, 2, 0] S64x512x1x512
  slices_S64x512x4x512_S64x512x1x512_0_0_3_0 : S64x512x4x512.Slices ![0, 0, 3, 0] S64x512x1x512
  bcast_S_S64x512x512 : S_.BroadcastsInDim S64x512x512 (![] : Fin 0 → Fin S64x512x512.rank)
  dot_S32768x64_S64x2048_S32768x2048_1_0_0_1_n_n_wf : DotDims.WF S32768x64 S64x2048 S32768x2048 [1] [0] [0] [1] [] []
  dot_S32768x512_S512x2048_S32768x2048_1_0_0_1_n_n_wf : DotDims.WF S32768x512 S512x2048 S32768x2048 [1] [0] [0] [1] [] []

variable [Facts₀]

def dot_S32768x64_S64x2048_S32768x2048_1_0_0_1_n_n : DotDims S32768x64 S64x2048 S32768x2048 where
  lhsContracting := [1]
  rhsContracting := [0]
  lhsNonContracting := [0]
  rhsNonContracting := [1]
  lhsBatch := []
  rhsBatch := []
  wf := dot_S32768x64_S64x2048_S32768x2048_1_0_0_1_n_n_wf
def dot_S32768x512_S512x2048_S32768x2048_1_0_0_1_n_n : DotDims S32768x512 S512x2048 S32768x2048 where
  lhsContracting := [1]
  rhsContracting := [0]
  lhsNonContracting := [0]
  rhsNonContracting := [1]
  lhsBatch := []
  rhsBatch := []
  wf := dot_S32768x512_S512x2048_S32768x2048_1_0_0_1_n_n_wf

class Facts : Prop extends Facts₀ where

variable [Facts]
-- ==== Proof.KFrame.lean ====
/-
  The frame of the LSTM-cell program: it runs to the end, faults nowhere and leaves its fifteen argument arrays as
  launched — and, beyond the frame, what the two result arrays hold when it ends.

  The program first joins the four gates' input weights, recurrent weights and biases side by side along the column
  axis (three concatenations, two of them followed by a change of float format), then runs one kernel over a grid of 64
  points, one batch entry per point. At a point the kernel is handed that entry's block of the input, of the hidden state
  and of the cell state, and the three joined matrices whole; it writes that entry's block of the new hidden state and of
  the new cell state. The body reads its six inputs through literal rectangles (the gate g's columns of a joined matrix
  are the rectangle at column offset 512·g), computes, and stores each output block whole, so after the body each output's
  staging buffer holds one pure function of the six input blocks: `out6` (new hidden state) and `out7` (new cell state).
  The host operations write only their own five result buffers, so the region finds every argument as launched.
-/
import proofs.«168691_j18708877541467_2_alg».proof.Proof.Gen.Kernel.Launch
import proofs.«168691_j18708877541467_2_alg».proof.Proof.Gen.Kernel.Skeleton
import proofs.«168691_j18708877541467_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- What each buffer of core `c` holds when the region is entered: the launch contents after the five host
    operations (the three joins and the two changes of format). -/
abbrev V (c : Dev nD) (b : Ref sig .tc) : Buf (Elt F) ((c : Thread nD τ).loc b) := StableHlo.after hostOps0 (fun b => m (c, b)) b

/-- No host operation allocates a buffer. -/
theorem hostOps0_fresh : (hostOps0 : List (HloOp τ sig (Elt F))).Forall fun op => op.fresh = ∅ := by
  simp only [List.Forall]; repeat' constructor

/-- The program is its host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- A buffer that is none of the five the host operations write is found by the region as launched. -/
theorem V_kept (c : Dev nD) (b : Ref sig .tc) (h0 : b ≠ main_v0) (h1 : b ≠ main_v1) (h2 : b ≠ main_v2) (h3 : b ≠ main_v3)
    (h4 : b ≠ main_v4) : V m c b = m ((c : Thread nD τ).loc b) :=
  StableHlo.after_of_forall_not_mem (b := Proc.devRef .tc b) _ _ (List.forall_iff_forall_mem.mp (by
    simp only [hostOps0, List.Forall, StableHlo.nary_writes, StableHlo.unary_writes, Finset.mem_singleton]
    exact ⟨StableHlo.devRef_ne_of_ne h0, StableHlo.devRef_ne_of_ne h1, StableHlo.devRef_ne_of_ne h2,
      StableHlo.devRef_ne_of_ne h3, StableHlo.devRef_ne_of_ne h4⟩))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds the window's block at every point, fetched there or not (where it
    is not fetched the block index has not moved since the last fetch), for any proof data whose array is the
    region-entry contents and whose body leaves the block in place. One statement per input window. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a run's -/

/-- In a final state where every array of the pipeline is at what the proof data computes and every other unscoped
    buffer is as the region found it, the fifteen arguments are as launched. The first three are staged inputs (an input
    array ends at its region-entry contents); the other twelve are staged by no window. -/
theorem kept_of_post (dats : (p : Fin 1) → (c : Dev nD) → Dat τ (Elt F) Unit ℕ (UR sig nD τ) ℕ (cfgs p) c)
    (hA : ∀ c w, (dats 0 c).A w = V m c (Pipeline.arrRef spec0 w))
    (r : PUnit × MemSt nD τ sig (Elt F)) (h : Pipeline.FramePost cfgs dats 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  ⟨((h c).1 0).trans (((dats 0 c).arrAt_in 0 rfl _).trans ((hA c 0).trans (V_kept m c main_arg0 (by decide) (by decide) (by decide) (by decide) (by decide)))),
    ((h c).1 1).trans (((dats 0 c).arrAt_in 1 rfl _).trans ((hA c 1).trans (V_kept m c main_arg1 (by decide) (by decide) (by decide) (by decide) (by decide)))),
    ((h c).1 2).trans (((dats 0 c).arrAt_in 2 rfl _).trans ((hA c 2).trans (V_kept m c main_arg2 (by decide) (by decide) (by decide) (by decide) (by decide)))),
    ((h c).2 main_arg3 (Pipeline.mem_restRefs_of main_arg3 (by decide) (by decide))).trans (V_kept m c main_arg3 (by decide) (by decide) (by decide) (by decide) (by decide)),
    ((h c).2 main_arg4 (Pipeline.mem_restRefs_of main_arg4 (by decide) (by decide))).trans (V_kept m c main_arg4 (by decide) (by decide) (by decide) (by decide) (by decide)),
    ((h c).2 main_arg5 (Pipeline.mem_restRefs_of main_arg5 (by decide) (by decide))).trans (V_kept m c main_arg5 (by decide) (by decide) (by decide) (by decide) (by decide)),
    ((h c).2 main_arg6 (Pipeline.mem_restRefs_of main_arg6 (by decide) (by decide))).trans (V_kept m c main_arg6 (by decide) (by decide) (by decide) (by decide) (by decide)),
    ((h c).2 main_arg7 (Pipeline.mem_restRefs_of main_arg7 (by decide) (by decide))).trans (V_kept m c main_arg7 (by decide) (by decide) (by decide) (by decide) (by decide)),
    ((h c).2 main_arg8 (Pipeline.mem_restRefs_of main_arg8 (by decide) (by decide))).trans (V_kept m c main_arg8 (by decide) (by decide) (by decide) (by decide) (by decide)),
    ((h c).2 main_arg9 (Pipeline.mem_restRefs_of main_arg9 (by decide) (by decide))).trans (V_kept m c main_arg9 (by decide) (by decide) (by decide) (by decide) (by decide)),
    ((h c).2 main_arg10 (Pipeline.mem_restRefs_of main_arg10 (by decide) (by decide))).trans (V_kept m c main_arg10 (by decide) (by decide) (by decide) (by decide) (by decide)),
    ((h c).2 main_arg11 (Pipeline.mem_restRefs_of main_arg11 (by decide) (by decide))).trans (V_kept m c main_arg11 (by decide) (by decide) (by decide) (by decide) (by decide)),
    ((h c).2 main_arg12 (Pipeline.mem_restRefs_of main_arg12 (by decide) (by decide))).trans (V_kept m c main_arg12 (by decide) (by decide) (by decide) (by decide) (by decide)),
    ((h c).2 main_arg13 (Pipeline.mem_restRefs_of main_arg13 (by decide) (by decide))).trans (V_kept m c main_arg13 (by decide) (by decide) (by decide) (by decide) (by decide)),
    ((h c).2 main_arg14 (Pipeline.mem_restRefs_of main_arg14 (by decide) (by decide))).trans (V_kept m c main_arg14 (by decide) (by decide) (by decide) (by decide) (by decide))⟩

/-- So a run to such a state is a run after which the fifteen arguments are as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => kept_of_post m dats hA r h c) h

/-! ## The rectangles the body reads and writes through -/

/-- The whole input block (one batch entry, 512 rows, 64 attributes). -/
abbrev rX : Rect S1x512x64 := Rect.unit (s := S1x512x64) ![0, 0, 0] S1x512x64.size inb_S1x512x64_S1x512x64_0_0_0
/-- The whole block of a state array (one batch entry, 512 rows, 512 hidden units): read for the hidden and cell states,
    written for the two results. -/
abbrev rS : Rect S1x512x512 := Rect.unit (s := S1x512x512) ![0, 0, 0] S1x512x512.size inb_S1x512x512_S1x512x512_0_0_0
/-- Gate g's columns of the joined input weights: column offset 512·g. -/
abbrev rW0 : Rect S64x2048 := Rect.unit (s := S64x2048) ![0, 0] S64x512.size inb_S64x2048_S64x512_0_0
abbrev rW1 : Rect S64x2048 := Rect.unit (s := S64x2048) ![0, 512] S64x512.size inb_S64x2048_S64x512_0_512
abbrev rW2 : Rect S64x2048 := Rect.unit (s := S64x2048) ![0, 1024] S64x512.size inb_S64x2048_S64x512_0_1024
abbrev rW3 : Rect S64x2048 := Rect.unit (s := S64x2048) ![0, 1536] S64x512.size inb_S64x2048_S64x512_0_1536
/-- Gate g's columns of the joined recurrent weights, and of the joined biases (both 512 × 2048). -/
abbrev rU0 : Rect S512x2048 := Rect.unit (s := S512x2048) ![0, 0] S512x512.size inb_S512x2048_S512x512_0_0
abbrev rU1 : Rect S512x2048 := Rect.unit (s := S512x2048) ![0, 512] S512x512.size inb_S512x2048_S512x512_0_512
abbrev rU2 : Rect S512x2048 := Rect.unit (s := S512x2048) ![0, 1024] S512x512.size inb_S512x2048_S512x512_0_1024
abbrev rU3 : Rect S512x2048 := Rect.unit (s := S512x2048) ![0, 1536] S512x512.size inb_S512x2048_S512x512_0_1536

/-! ## What the body leaves in each output window's buffer -/

/-- The new cell state's block, from the six input blocks: `f · c + i · g`, with `i`, `f` the logistic and `g` the
    hyperbolic tangent of their gates' pre-activations (gate columns 0, 512 and 1536), as one stored piece. -/
def out7 (x0 : Vec F S1x512x64 .f32) (x1 : Vec F S1x512x512 .f32) (x2 : Vec F S1x512x512 .f32) (x3 : Vec F S64x2048 .bf16)
    (x4 : Vec F S512x2048 .bf16) (x5 : Vec F S512x2048 .f32) : Vec F S1x512x512 .f32 :=
  View.canon [⟨rS, k0_pay2 (k0_pay4 (View.ld x0 rX)) (k0_pay5 (View.ld x1 rS))
    (k0_pay6 (View.ld x0 rX) (View.ld x1 rS) (View.ld x3 rW0) (View.ld x4 rU0) (View.ld x5 rU0))
    (k0_pay7 (View.ld x0 rX) (View.ld x1 rS) (View.ld x3 rW1) (View.ld x4 rU1) (View.ld x5 rU1))
    (View.ld x3 rW3) (View.ld x4 rU3) (View.ld x5 rU3) (View.ld x2 rS)⟩]

/-- The new hidden state's block: `o · tanh (new cell state)`, `o` the logistic of its gate's pre-activation (gate
    columns 1024), as one stored piece. -/
def out6 (x0 : Vec F S1x512x64 .f32) (x1 : Vec F S1x512x512 .f32) (x2 : Vec F S1x512x512 .f32) (x3 : Vec F S64x2048 .bf16)
    (x4 : Vec F S512x2048 .bf16) (x5 : Vec F S512x2048 .f32) : Vec F S1x512x512 .f32 :=
  View.canon [⟨rS, k0_pay3 (k0_pay4 (View.ld x0 rX)) (k0_pay5 (View.ld x1 rS))
    (k0_pay6 (View.ld x0 rX) (View.ld x1 rS) (View.ld x3 rW0) (View.ld x4 rU0) (View.ld x5 rU0))
    (k0_pay7 (View.ld x0 rX) (View.ld x1 rS) (View.ld x3 rW1) (View.ld x4 rU1) (View.ld x5 rU1))
    (k0_pay8 (View.ld x3 rW2)) (k0_pay9 (View.ld x4 rU2)) (View.ld x5 rU2)
    (View.ld x3 rW3) (View.ld x4 rU3) (View.ld x5 rU3) (View.ld x2 rS)⟩]

/-- The one store of an output covers its buffer: the rectangle is the whole block. -/
theorem coverS (p0 : Vec F S1x512x512 .f32) (y : S1x512x512.Idx) :
    ∃ pc ∈ ([⟨rS, p0⟩] : List (View.Piece (Elt F) S1x512x512 .f32)), y ∈ pc.1.set :=
  View.cover_of_tiled [⟨rS, p0⟩] S1x512x512.size (by rfl) y

/-! ## The body's triple -/

set_option maxHeartbeats 2000000 in
/-- The kernel body on whole staging buffers, the inputs' at contents `x0 … x5` and the outputs' at anything, runs to a
    state where the inputs' buffers are as they were and the outputs' hold `out6` and `out7` of the inputs'. -/
theorem sound_kernel (c : Dev nD) (E : Set ℕ) (i : grid0.Coords)
    (arg1 : Memref sig .tc .vmem S1x512x64 .f32) (harg1 : arg1.IsWhole) (arg2 : Memref sig .tc .vmem S1x512x512 .f32) (harg2 : arg2.IsWhole)
    (arg3 : Memref sig .tc .vmem S1x512x512 .f32) (harg3 : arg3.IsWhole) (arg4 : Memref sig .tc .vmem S64x2048 .bf16) (harg4 : arg4.IsWhole)
    (arg5 : Memref sig .tc .vmem S512x2048 .bf16) (harg5 : arg5.IsWhole) (arg6 : Memref sig .tc .vmem S512x2048 .f32) (harg6 : arg6.IsWhole)
    (arg7 : Memref sig .tc .vmem S1x512x512 .f32) (harg7 : arg7.IsWhole) (arg8 : Memref sig .tc .vmem S1x512x512 .f32) (harg8 : arg8.IsWhole)
    (x0 : Vec F S1x512x64 .f32) (x1 : Vec F S1x512x512 .f32) (x2 : Vec F S1x512x512 .f32) (x3 : Vec F S64x2048 .bf16)
    (x4 : Vec F S512x2048 .bf16) (x5 : Vec F S512x2048 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out6 x0 x1 x2 x3 x4 x5) ∗ owns (c : Thread nD τ) arg8 fullShare (out7 x0 x1 x2 x3 x4 x5)) -∗ K ⟨⟩))
      ⊢ wp frame (wpE (defs₀ (F := F)) Variants.none c none) E
          (cc0__lstm_kernel i arg1 harg1 arg2 harg2 arg3 harg3 arg4 harg4 arg5 harg5 arg6 harg6 arg7 harg7 arg8 harg8) K := by
  simp only [cc0__lstm_kernel_eq_skeleton]; unfold cc0__lstm_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    try dsimp only
    exact View.read_writes_eq_canon _ _ _ (coverS _)
  iexists _; isplitr
  swap; · iexact H7
  ipureintro
  try dsimp only
  exact View.read_writes_eq_canon _ _ _ (coverS _)

/-! ## The pipeline's proof data -/

/-- On core `c`: the arrays as the region finds them; after the body at point `t` each input's buffer at its block and
    each output's at `out6` / `out7` of the six input blocks; nothing else of the core is touched. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out6 (iblk m c 0 t) (iblk m c 1 t) (iblk m c 2 t) (iblk m c 3 t) (iblk m c 4 t) (iblk m c 5 t)
    | ⟨7, _⟩ => out7 (iblk m c 0 t) (iblk m c 1 t) (iblk m c 2 t) (iblk m c 3 t) (iblk m c 4 t) (iblk m c 5 t)
  Φ _ := Pipeline.ΦA spec0 c
  q _ := fullShare
  owed _ := 0

/-- The proof data's arrays are the region-entry contents (by projection, the fold over the host operations kept
    folded). -/
theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t
    = out6 (iblk m c 0 t) (iblk m c 1 t) (iblk m c 2 t) (iblk m c 3 t) (iblk m c 4 t) (iblk m c 5 t) := by dsimp only [dats]
theorem after7 (c : Dev nD) (t : Fin cfg0.N) : (dats m 0 c).after 7 t
    = out7 (iblk m c 0 t) (iblk m c 1 t) (iblk m c 2 t) (iblk m c 3 t) (iblk m c 4 t) (iblk m c 5 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' buffers hold their blocks, so the body's triple applies; the rest of the core
    passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates, and in every final state
    each array of the pipeline holds what the proof data computes (an input its region-entry contents, an output those
    overwritten block by block by what the body left) and every other unscoped buffer what the region found. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs and its fifteen argument arrays end as launched, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame_of m ρ (dats m) (A_eq m) (run_main m ρ)

end Cert.Kernel.Fr

end
-- ==== Proof.KIFrame.lean ====
/-
  The frame of the LSTM-cell program: it runs to the end, faults nowhere and leaves its fifteen argument arrays as
  launched — and, beyond the frame, what the two result arrays hold when it ends.

  The program first joins the four gates' input weights, recurrent weights and biases side by side along the column
  axis (three concatenations, two of them followed by a change of float format), then runs one kernel over a grid of 64
  points, one batch entry per point. At a point the kernel is handed that entry's block of the input, of the hidden state
  and of the cell state, and the three joined matrices whole; it writes that entry's block of the new hidden state and of
  the new cell state. The body reads its six inputs through literal rectangles (the gate g's columns of a joined matrix
  are the rectangle at column offset 512·g), computes, and stores each output block whole, so after the body each output's
  staging buffer holds one pure function of the six input blocks: `out6` (new hidden state) and `out7` (new cell state).
  The host operations write only their own five result buffers, so the region finds every argument as launched.
-/
import proofs.«168691_j18708877541467_2_alg».proof.Proof.Gen.KernelIdeal.Launch
import proofs.«168691_j18708877541467_2_alg».proof.Proof.Gen.KernelIdeal.Skeleton
import proofs.«168691_j18708877541467_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- What each buffer of core `c` holds when the region is entered: the launch contents after the five host
    operations (the three joins and the two changes of format). -/
abbrev V (c : Dev nD) (b : Ref sig .tc) : Buf (Elt F) ((c : Thread nD τ).loc b) := StableHlo.after hostOps0 (fun b => m (c, b)) b

/-- No host operation allocates a buffer. -/
theorem hostOps0_fresh : (hostOps0 : List (HloOp τ sig (Elt F))).Forall fun op => op.fresh = ∅ := by
  simp only [List.Forall]; repeat' constructor

/-- The program is its host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- A buffer that is none of the five the host operations write is found by the region as launched. -/
theorem V_kept (c : Dev nD) (b : Ref sig .tc) (h0 : b ≠ main_v0) (h1 : b ≠ main_v1) (h2 : b ≠ main_v2) (h3 : b ≠ main_v3)
    (h4 : b ≠ main_v4) : V m c b = m ((c : Thread nD τ).loc b) :=
  StableHlo.after_of_forall_not_mem (b := Proc.devRef .tc b) _ _ (List.forall_iff_forall_mem.mp (by
    simp only [hostOps0, List.Forall, StableHlo.nary_writes, StableHlo.unary_writes, Finset.mem_singleton]
    exact ⟨StableHlo.devRef_ne_of_ne h0, StableHlo.devRef_ne_of_ne h1, StableHlo.devRef_ne_of_ne h2,
      StableHlo.devRef_ne_of_ne h3, StableHlo.devRef_ne_of_ne h4⟩))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds the window's block at every point, fetched there or not (where it
    is not fetched the block index has not moved since the last fetch), for any proof data whose array is the
    region-entry contents and whose body leaves the block in place. One statement per input window. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a run's -/

/-- In a final state where every array of the pipeline is at what the proof data computes and every other unscoped
    buffer is as the region found it, the fifteen arguments are as launched. The first three are staged inputs (an input
    array ends at its region-entry contents); the other twelve are staged by no window. -/
theorem kept_of_post (dats : (p : Fin 1) → (c : Dev nD) → Dat τ (Elt F) Unit ℕ (UR sig nD τ) ℕ (cfgs p) c)
    (hA : ∀ c w, (dats 0 c).A w = V m c (Pipeline.arrRef spec0 w))
    (r : PUnit × MemSt nD τ sig (Elt F)) (h : Pipeline.FramePost cfgs dats 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  ⟨((h c).1 0).trans (((dats 0 c).arrAt_in 0 rfl _).trans ((hA c 0).trans (V_kept m c main_arg0 (by decide) (by decide) (by decide) (by decide) (by decide)))),
    ((h c).1 1).trans (((dats 0 c).arrAt_in 1 rfl _).trans ((hA c 1).trans (V_kept m c main_arg1 (by decide) (by decide) (by decide) (by decide) (by decide)))),
    ((h c).1 2).trans (((dats 0 c).arrAt_in 2 rfl _).trans ((hA c 2).trans (V_kept m c main_arg2 (by decide) (by decide) (by decide) (by decide) (by decide)))),
    ((h c).2 main_arg3 (Pipeline.mem_restRefs_of main_arg3 (by decide) (by decide))).trans (V_kept m c main_arg3 (by decide) (by decide) (by decide) (by decide) (by decide)),
    ((h c).2 main_arg4 (Pipeline.mem_restRefs_of main_arg4 (by decide) (by decide))).trans (V_kept m c main_arg4 (by decide) (by decide) (by decide) (by decide) (by decide)),
    ((h c).2 main_arg5 (Pipeline.mem_restRefs_of main_arg5 (by decide) (by decide))).trans (V_kept m c main_arg5 (by decide) (by decide) (by decide) (by decide) (by decide)),
    ((h c).2 main_arg6 (Pipeline.mem_restRefs_of main_arg6 (by decide) (by decide))).trans (V_kept m c main_arg6 (by decide) (by decide) (by decide) (by decide) (by decide)),
    ((h c).2 main_arg7 (Pipeline.mem_restRefs_of main_arg7 (by decide) (by decide))).trans (V_kept m c main_arg7 (by decide) (by decide) (by decide) (by decide) (by decide)),
    ((h c).2 main_arg8 (Pipeline.mem_restRefs_of main_arg8 (by decide) (by decide))).trans (V_kept m c main_arg8 (by decide) (by decide) (by decide) (by decide) (by decide)),
    ((h c).2 main_arg9 (Pipeline.mem_restRefs_of main_arg9 (by decide) (by decide))).trans (V_kept m c main_arg9 (by decide) (by decide) (by decide) (by decide) (by decide)),
    ((h c).2 main_arg10 (Pipeline.mem_restRefs_of main_arg10 (by decide) (by decide))).trans (V_kept m c main_arg10 (by decide) (by decide) (by decide) (by decide) (by decide)),
    ((h c).2 main_arg11 (Pipeline.mem_restRefs_of main_arg11 (by decide) (by decide))).trans (V_kept m c main_arg11 (by decide) (by decide) (by decide) (by decide) (by decide)),
    ((h c).2 main_arg12 (Pipeline.mem_restRefs_of main_arg12 (by decide) (by decide))).trans (V_kept m c main_arg12 (by decide) (by decide) (by decide) (by decide) (by decide)),
    ((h c).2 main_arg13 (Pipeline.mem_restRefs_of main_arg13 (by decide) (by decide))).trans (V_kept m c main_arg13 (by decide) (by decide) (by decide) (by decide) (by decide)),
    ((h c).2 main_arg14 (Pipeline.mem_restRefs_of main_arg14 (by decide) (by decide))).trans (V_kept m c main_arg14 (by decide) (by decide) (by decide) (by decide) (by decide))⟩

/-- So a run to such a state is a run after which the fifteen arguments are as launched. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => kept_of_post m dats hA r h c) h

/-! ## The rectangles the body reads and writes through -/

/-- The whole input block (one batch entry, 512 rows, 64 attributes). -/
abbrev rX : Rect S1x512x64 := Rect.unit (s := S1x512x64) ![0, 0, 0] S1x512x64.size inb_S1x512x64_S1x512x64_0_0_0
/-- The whole block of a state array (one batch entry, 512 rows, 512 hidden units): read for the hidden and cell states,
    written for the two results. -/
abbrev rS : Rect S1x512x512 := Rect.unit (s := S1x512x512) ![0, 0, 0] S1x512x512.size inb_S1x512x512_S1x512x512_0_0_0
/-- Gate g's columns of the joined input weights: column offset 512·g. -/
abbrev rW0 : Rect S64x2048 := Rect.unit (s := S64x2048) ![0, 0] S64x512.size inb_S64x2048_S64x512_0_0
abbrev rW1 : Rect S64x2048 := Rect.unit (s := S64x2048) ![0, 512] S64x512.size inb_S64x2048_S64x512_0_512
abbrev rW2 : Rect S64x2048 := Rect.unit (s := S64x2048) ![0, 1024] S64x512.size inb_S64x2048_S64x512_0_1024
abbrev rW3 : Rect S64x2048 := Rect.unit (s := S64x2048) ![0, 1536] S64x512.size inb_S64x2048_S64x512_0_1536
/-- Gate g's columns of the joined recurrent weights, and of the joined biases (both 512 × 2048). -/
abbrev rU0 : Rect S512x2048 := Rect.unit (s := S512x2048) ![0, 0] S512x512.size inb_S512x2048_S512x512_0_0
abbrev rU1 : Rect S512x2048 := Rect.unit (s := S512x2048) ![0, 512] S512x512.size inb_S512x2048_S512x512_0_512
abbrev rU2 : Rect S512x2048 := Rect.unit (s := S512x2048) ![0, 1024] S512x512.size inb_S512x2048_S512x512_0_1024
abbrev rU3 : Rect S512x2048 := Rect.unit (s := S512x2048) ![0, 1536] S512x512.size inb_S512x2048_S512x512_0_1536

/-! ## What the body leaves in each output window's buffer -/

/-- The new cell state's block, from the six input blocks: `f · c + i · g`, with `i`, `f` the logistic and `g` the
    hyperbolic tangent of their gates' pre-activations (gate columns 0, 512 and 1536), as one stored piece. -/
def out7 (x0 : Vec F S1x512x64 .f32) (x1 : Vec F S1x512x512 .f32) (x2 : Vec F S1x512x512 .f32) (x3 : Vec F S64x2048 .bf16)
    (x4 : Vec F S512x2048 .bf16) (x5 : Vec F S512x2048 .f32) : Vec F S1x512x512 .f32 :=
  View.canon [⟨rS, k0_pay2 (k0_pay4 (View.ld x0 rX)) (k0_pay5 (View.ld x1 rS))
    (k0_pay6 (View.ld x0 rX) (View.ld x1 rS) (View.ld x3 rW0) (View.ld x4 rU0) (View.ld x5 rU0))
    (k0_pay7 (View.ld x0 rX) (View.ld x1 rS) (View.ld x3 rW1) (View.ld x4 rU1) (View.ld x5 rU1))
    (View.ld x3 rW3) (View.ld x4 rU3) (View.ld x5 rU3) (View.ld x2 rS)⟩]

/-- The new hidden state's block: `o · tanh (new cell state)`, `o` the logistic of its gate's pre-activation (gate
    columns 1024), as one stored piece. -/
def out6 (x0 : Vec F S1x512x64 .f32) (x1 : Vec F S1x512x512 .f32) (x2 : Vec F S1x512x512 .f32) (x3 : Vec F S64x2048 .bf16)
    (x4 : Vec F S512x2048 .bf16) (x5 : Vec F S512x2048 .f32) : Vec F S1x512x512 .f32 :=
  View.canon [⟨rS, k0_pay3 (k0_pay4 (View.ld x0 rX)) (k0_pay5 (View.ld x1 rS))
    (k0_pay6 (View.ld x0 rX) (View.ld x1 rS) (View.ld x3 rW0) (View.ld x4 rU0) (View.ld x5 rU0))
    (k0_pay7 (View.ld x0 rX) (View.ld x1 rS) (View.ld x3 rW1) (View.ld x4 rU1) (View.ld x5 rU1))
    (k0_pay8 (View.ld x3 rW2)) (k0_pay9 (View.ld x4 rU2)) (View.ld x5 rU2)
    (View.ld x3 rW3) (View.ld x4 rU3) (View.ld x5 rU3) (View.ld x2 rS)⟩]

/-- The one store of an output covers its buffer: the rectangle is the whole block. -/
theorem coverS (p0 : Vec F S1x512x512 .f32) (y : S1x512x512.Idx) :
    ∃ pc ∈ ([⟨rS, p0⟩] : List (View.Piece (Elt F) S1x512x512 .f32)), y ∈ pc.1.set :=
  View.cover_of_tiled [⟨rS, p0⟩] S1x512x512.size (by rfl) y

/-! ## The body's triple -/

set_option maxHeartbeats 2000000 in
/-- The kernel body on whole staging buffers, the inputs' at contents `x0 … x5` and the outputs' at anything, runs to a
    state where the inputs' buffers are as they were and the outputs' hold `out6` and `out7` of the inputs'. -/
theorem sound_kernel (c : Dev nD) (E : Set ℕ) (i : grid0.Coords)
    (arg1 : Memref sig .tc .vmem S1x512x64 .f32) (harg1 : arg1.IsWhole) (arg2 : Memref sig .tc .vmem S1x512x512 .f32) (harg2 : arg2.IsWhole)
    (arg3 : Memref sig .tc .vmem S1x512x512 .f32) (harg3 : arg3.IsWhole) (arg4 : Memref sig .tc .vmem S64x2048 .bf16) (harg4 : arg4.IsWhole)
    (arg5 : Memref sig .tc .vmem S512x2048 .bf16) (harg5 : arg5.IsWhole) (arg6 : Memref sig .tc .vmem S512x2048 .f32) (harg6 : arg6.IsWhole)
    (arg7 : Memref sig .tc .vmem S1x512x512 .f32) (harg7 : arg7.IsWhole) (arg8 : Memref sig .tc .vmem S1x512x512 .f32) (harg8 : arg8.IsWhole)
    (x0 : Vec F S1x512x64 .f32) (x1 : Vec F S1x512x512 .f32) (x2 : Vec F S1x512x512 .f32) (x3 : Vec F S64x2048 .bf16)
    (x4 : Vec F S512x2048 .bf16) (x5 : Vec F S512x2048 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out6 x0 x1 x2 x3 x4 x5) ∗ owns (c : Thread nD τ) arg8 fullShare (out7 x0 x1 x2 x3 x4 x5)) -∗ K ⟨⟩))
      ⊢ wp frame (wpE (defs₀ (F := F)) Variants.none c none) E
          (cc0__lstm_kernel i arg1 harg1 arg2 harg2 arg3 harg3 arg4 harg4 arg5 harg5 arg6 harg6 arg7 harg7 arg8 harg8) K := by
  simp only [cc0__lstm_kernel_eq_skeleton]; unfold cc0__lstm_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    try dsimp only
    exact View.read_writes_eq_canon _ _ _ (coverS _)
  iexists _; isplitr
  swap; · iexact H7
  ipureintro
  try dsimp only
  exact View.read_writes_eq_canon _ _ _ (coverS _)

/-! ## The pipeline's proof data -/

/-- On core `c`: the arrays as the region finds them; after the body at point `t` each input's buffer at its block and
    each output's at `out6` / `out7` of the six input blocks; nothing else of the core is touched. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out6 (iblk m c 0 t) (iblk m c 1 t) (iblk m c 2 t) (iblk m c 3 t) (iblk m c 4 t) (iblk m c 5 t)
    | ⟨7, _⟩ => out7 (iblk m c 0 t) (iblk m c 1 t) (iblk m c 2 t) (iblk m c 3 t) (iblk m c 4 t) (iblk m c 5 t)
  Φ _ := Pipeline.ΦA spec0 c
  q _ := fullShare
  owed _ := 0

/-- The proof data's arrays are the region-entry contents (by projection, the fold over the host operations kept
    folded). -/
theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t
    = out6 (iblk m c 0 t) (iblk m c 1 t) (iblk m c 2 t) (iblk m c 3 t) (iblk m c 4 t) (iblk m c 5 t) := by dsimp only [dats]
theorem after7 (c : Dev nD) (t : Fin cfg0.N) : (dats m 0 c).after 7 t
    = out7 (iblk m c 0 t) (iblk m c 1 t) (iblk m c 2 t) (iblk m c 3 t) (iblk m c 4 t) (iblk m c 5 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' buffers hold their blocks, so the body's triple applies; the rest of the core
    passes through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ _ _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates, and in every final state
    each array of the pipeline holds what the proof data computes (an input its region-entry contents, an output those
    overwritten block by block by what the body left) and every other unscoped buffer what the region found. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs and its fifteen argument arrays end as launched, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  frame_of m ρ (dats m) (A_eq m) (run_main m ρ)

end Cert.KernelIdeal.Fr

end
-- ==== Proof.LibPlainDot.lean ====
/-
  A matrix product of the plain kind — rows × contraction times contraction × columns — read at an index, at the
  ideal instance.

  For the dimension numbers `DotDims.plain M K N` both the vector unit's matmul into a zero accumulator and the host's
  dot_general are, at output index (a, b), the sum over k of l (a, k) · r (k, b) on the extended reals. The sum over
  the one-axis contraction index is re-indexed by its one coordinate.
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

theorem lhs0 (M K N : Nat) (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl
theorem lhs1 (M K N : Nat) (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q
theorem rhs0 (M K N : Nat) (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q
theorem rhs1 (M K N : Nat) (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The contraction sum of such a product at (a, b), over the coordinate `k : Fin K`. -/
theorem sum_plain (M K N : Nat) {φ₁ φ₂ : FTy} (l : FVec Ideal ⟨2, ![M, K]⟩ φ₁) (r : FVec Ideal ⟨2, ![K, N]⟩ φ₂)
    (a : Fin M) (b : Fin N) :
    ∑ k : (DotDims.plain M K N).contr.Idx,
        l ((DotDims.plain M K N).lhsIdx (ix2 a b) k) * r ((DotDims.plain M K N).rhsIdx (ix2 a b) k)
      = ∑ k : Fin K, l (ix2 a k) * r (ix2 k b) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 a b) ((contrEquiv1 (DotDims.plain M K N) K rfl rfl).symm k) = ix2 a k :=
    funext fun d => Fin.ext (by
      match d with
      | ⟨0, _⟩ => exact lhs0 M K N _ _
      | ⟨1, _⟩ => exact (lhs1 M K N _ _).trans hk)
  have er : (DotDims.plain M K N).rhsIdx (ix2 a b) ((contrEquiv1 (DotDims.plain M K N) K rfl rfl).symm k) = ix2 k b :=
    funext fun d => Fin.ext (by
      match d with
      | ⟨0, _⟩ => exact (rhs0 M K N _ _).trans hk
      | ⟨1, _⟩ => exact rhs1 M K N _ _)
  rw [el, er]

/-- The vector unit's matmul into the zero accumulator, at (a, b). -/
theorem matmul_plain {M K N : Nat} {φ₁ φ₂ : FTy} (D : DotDims ⟨2, ![M, K]⟩ ⟨2, ![K, N]⟩ ⟨2, ![M, N]⟩)
    (hD : D = DotDims.plain M K N) (prec : Option ContractPrecision)
    (l : FVec Ideal ⟨2, ![M, K]⟩ φ₁) (r : FVec Ideal ⟨2, ![K, N]⟩ φ₂) (a : Fin M) (b : Fin N) :
    matmul D prec l r (constant ⟨2, ![M, N]⟩ .f32 0x00000000#32) (ix2 a b) = ∑ k : Fin K, l (ix2 a k) * r (ix2 k b) := by
  subst hD
  exact (Ideal.matmul_constant_zero_apply _ prec l r (ix2 a b)).trans (sum_plain M K N l r a b)

/-- The host's dot_general, at (a, b). -/
theorem dotGeneral_plain {M K N : Nat} {φ₁ φ₂ : FTy} (D : DotDims ⟨2, ![M, K]⟩ ⟨2, ![K, N]⟩ ⟨2, ![M, N]⟩)
    (hD : D = DotDims.plain M K N) (prec : Option ContractPrecision)
    (l : FVec Ideal ⟨2, ![M, K]⟩ φ₁) (r : FVec Ideal ⟨2, ![K, N]⟩ φ₂) (a : Fin M) (b : Fin N) :
    Host.dotGeneral (F := Ideal) D prec l r (ix2 a b) = ∑ k : Fin K, l (ix2 a k) * r (ix2 k b) := by
  subst hD
  simp only [Host.dotGeneral]
  exact (Ideal.dotGeneral_apply _ prec _ l r (ix2 a b)).trans (sum_plain M K N l r a b)

end Idealize.ShloMosaic.PlainDot

end
-- ==== Proof.KPay.lean ====
/-
  What the kernel body stores, read at one row and one hidden unit, at the ideal instance.

  The body reshapes its input block [1, 512, 64] and hidden-state block [1, 512, 512] to matrices (dropping the unit
  axis; the change of float format is the identity here), multiplies them into one gate's 512 columns of the joined weight
  matrices, adds the gate's bias columns, and applies the logistic function or the hyperbolic tangent. Each matrix product
  into a zero accumulator is, at (r, n), the plain sum over the contracted axis.
-/
import proofs.«168691_j18708877541467_2_alg».proof.Proof.Gen.KernelIdeal.Skeleton
import proofs.«168691_j18708877541467_2_alg».proof.Proof.LibPlainDot
import Idealize.ShloMosaic.Lib.ValueLayout
import Idealize.ShloMosaic.Lib.Pipeline.Value

noncomputable section

open scoped BigOperators

namespace Cert.KernelIdeal.Pay

open Cert.KernelIdeal Cert.KernelIdeal.Gen Idealize.ShloMosaic Idealize.ShloMosaic.ValueIdx

/-- Both products of the body are of the plain kind: rows × contraction by contraction × columns. -/
theorem dotX_plain : dot_S512x64_S64x512_S512x512_1_0_0_1_n_n = DotDims.plain 512 64 512 := rfl
theorem dotH_plain : dot_S512x512_S512x512_S512x512_1_0_0_1_n_n = DotDims.plain 512 512 512 := rfl

/-- One gate's pre-activation at row `r`, hidden unit `n`, from the blocks the body loaded: the input block `x0`, the
    hidden-state block `x1`, and the gate's 512 columns `w`, `u`, `bb` of the joined weights and biases. -/
def preB (x0 : FVec Ideal S1x512x64 .f32) (x1 : FVec Ideal S1x512x512 .f32) (w : FVec Ideal S64x512 .bf16)
    (u : FVec Ideal S512x512 .bf16) (bb : FVec Ideal S512x512 .f32) (r n : Fin 512) : EReal :=
  (∑ k : Fin 64, x0 (ix3 0 r k) * w (ix2 k n)) + (∑ k : Fin 512, x1 (ix3 0 r k) * u (ix2 k n)) + bb (ix2 r n)

/-- The input block as a matrix: row `r`, attribute `k` is the block's entry (0, r, k). -/
theorem xrow (x0 : FVec Ideal S1x512x64 .f32) (r : Fin 512) (k : Fin 64) :
    k0_pay4 (F := Ideal) x0 (ix2 r k) = x0 (ix3 0 r k) :=
  shapeCast_1ab_ab_apply x0 shapeCasts_S1x512x64_S512x64 r k
/-- The hidden-state block as a matrix. -/
theorem hrow (x1 : FVec Ideal S1x512x512 .f32) (r k : Fin 512) :
    k0_pay5 (F := Ideal) x1 (ix2 r k) = x1 (ix3 0 r k) :=
  shapeCast_1ab_ab_apply x1 shapeCasts_S1x512x512_S512x512 r k

/-- A gate's pre-activation as the body computes it: two products into zero accumulators, added, plus the bias
    columns. -/
def gateV (x0 : FVec Ideal S1x512x64 .f32) (x1 : FVec Ideal S1x512x512 .f32) (w : FVec Ideal S64x512 .bf16)
    (u : FVec Ideal S512x512 .bf16) (bb : FVec Ideal S512x512 .f32) : FVec Ideal S512x512 .f32 :=
  addf (addf (matmul dot_S512x64_S64x512_S512x512_1_0_0_1_n_n none (k0_pay4 (F := Ideal) x0) (shapeCast S64x512 w shapeCasts_S64x512_S64x512) (constant S512x512 .f32 0x00000000#32))
      (matmul dot_S512x512_S512x512_S512x512_1_0_0_1_n_n none (k0_pay5 (F := Ideal) x1) (shapeCast S512x512 u shapeCasts_S512x512_S512x512) (constant S512x512 .f32 0x00000000#32)))
    (shapeCast S512x512 bb shapeCasts_S512x512_S512x512)

/-- It is `preB` at every (r, n): each product is the plain sum over the contracted axis. -/
theorem gate_apply (x0 : FVec Ideal S1x512x64 .f32) (x1 : FVec Ideal S1x512x512 .f32) (w : FVec Ideal S64x512 .bf16)
    (u : FVec Ideal S512x512 .bf16) (bb : FVec Ideal S512x512 .f32) (r n : Fin 512) :
    gateV x0 x1 w u bb (ix2 r n) = preB x0 x1 w u bb r n := by
  unfold gateV
  rw [shapeCast_self w, shapeCast_self u, shapeCast_self bb]
  show matmul dot_S512x64_S64x512_S512x512_1_0_0_1_n_n none (k0_pay4 (F := Ideal) x0) w (constant S512x512 .f32 0x00000000#32) (ix2 r n)
      + matmul dot_S512x512_S512x512_S512x512_1_0_0_1_n_n none (k0_pay5 (F := Ideal) x1) u (constant S512x512 .f32 0x00000000#32) (ix2 r n)
      + bb (ix2 r n) = _
  rw [PlainDot.matmul_plain _ dotX_plain, PlainDot.matmul_plain _ dotH_plain]
  simp only [xrow, hrow]
  rfl

/-- The input gate's and the forget gate's activations as the first part of the body returns them. -/
theorem pay6_apply (x0 : FVec Ideal S1x512x64 .f32) (x1 : FVec Ideal S1x512x512 .f32) (w : FVec Ideal S64x512 .bf16)
    (u : FVec Ideal S512x512 .bf16) (bb : FVec Ideal S512x512 .f32) (r n : Fin 512) :
    k0_pay6 (F := Ideal) x0 x1 w u bb (ix2 r n) = Ideal.logistic (preB x0 x1 w u bb r n) :=
  congrArg Ideal.logistic (gate_apply x0 x1 w u bb r n)
theorem pay7_apply (x0 : FVec Ideal S1x512x64 .f32) (x1 : FVec Ideal S1x512x512 .f32) (w : FVec Ideal S64x512 .bf16)
    (u : FVec Ideal S512x512 .bf16) (bb : FVec Ideal S512x512 .f32) (r n : Fin 512) :
    k0_pay7 (F := Ideal) x0 x1 w u bb (ix2 r n) = Ideal.logistic (preB x0 x1 w u bb r n) :=
  congrArg Ideal.logistic (gate_apply x0 x1 w u bb r n)

/-- The new cell state as a matrix, from the two gate activations already computed (`vi`, `vf`), the candidate
    gate's columns and the cell-state block `cc`. -/
theorem pay1_apply (x0 : FVec Ideal S1x512x64 .f32) (x1 : FVec Ideal S1x512x512 .f32) (vi vf : FVec Ideal S512x512 .f32)
    (w : FVec Ideal S64x512 .bf16) (u : FVec Ideal S512x512 .bf16) (bb : FVec Ideal S512x512 .f32)
    (cc : FVec Ideal S1x512x512 .f32) (r n : Fin 512) :
    k0_pay1 (F := Ideal) (k0_pay4 x0) (k0_pay5 x1) vi vf w u bb cc (ix2 r n)
      = vf (ix2 r n) * cc (ix3 0 r n) + vi (ix2 r n) * Ideal.tanh (preB x0 x1 w u bb r n) :=
  congrArg₂ (fun a b : EReal => a + b)
    (congrArg (fun z : EReal => vf (ix2 r n) * z) (shapeCast_1ab_ab_apply cc shapeCasts_S1x512x512_S512x512 r n))
    (congrArg (fun z : EReal => vi (ix2 r n) * Ideal.tanh z) (gate_apply x0 x1 w u bb r n))

/-- The new cell state's block as stored, at (0, r, n): forget · old cell + input · candidate. -/
theorem cell_apply (x0 : FVec Ideal S1x512x64 .f32) (x1 cc : FVec Ideal S1x512x512 .f32)
    (w0 w1 w3 : FVec Ideal S64x512 .bf16) (u0 u1 u3 : FVec Ideal S512x512 .bf16) (b0 b1 b3 : FVec Ideal S512x512 .f32)
    (r n : Fin 512) :
    k0_pay2 (F := Ideal) (k0_pay4 x0) (k0_pay5 x1) (k0_pay6 x0 x1 w0 u0 b0) (k0_pay7 x0 x1 w1 u1 b1) w3 u3 b3 cc (ix3 0 r n)
      = Ideal.logistic (preB x0 x1 w1 u1 b1 r n) * cc (ix3 0 r n)
        + Ideal.logistic (preB x0 x1 w0 u0 b0 r n) * Ideal.tanh (preB x0 x1 w3 u3 b3 r n) := by
  have e : k0_pay2 (F := Ideal) (k0_pay4 x0) (k0_pay5 x1) (k0_pay6 x0 x1 w0 u0 b0) (k0_pay7 x0 x1 w1 u1 b1) w3 u3 b3 cc
      = shapeCast S1x512x512 (k0_pay1 (F := Ideal) (k0_pay4 x0) (k0_pay5 x1) (k0_pay6 x0 x1 w0 u0 b0) (k0_pay7 x0 x1 w1 u1 b1) w3 u3 b3 cc)
          shapeCasts_S512x512_S1x512x512 := rfl
  rw [e, shapeCast_ab_1ab_apply, pay1_apply, pay6_apply, pay7_apply]

/-- The new hidden state's block as stored, at (0, r, n): output gate · tanh of the new cell state. -/
theorem hidden_apply (x0 : FVec Ideal S1x512x64 .f32) (x1 cc : FVec Ideal S1x512x512 .f32)
    (w0 w1 w2 w3 : FVec Ideal S64x512 .bf16) (u0 u1 u2 u3 : FVec Ideal S512x512 .bf16) (b0 b1 b2 b3 : FVec Ideal S512x512 .f32)
    (r n : Fin 512) :
    k0_pay3 (F := Ideal) (k0_pay4 x0) (k0_pay5 x1) (k0_pay6 x0 x1 w0 u0 b0) (k0_pay7 x0 x1 w1 u1 b1) (k0_pay8 w2) (k0_pay9 u2) b2
        w3 u3 b3 cc (ix3 0 r n)
      = Ideal.logistic (preB x0 x1 w2 u2 b2 r n)
        * Ideal.tanh (Ideal.logistic (preB x0 x1 w1 u1 b1 r n) * cc (ix3 0 r n)
            + Ideal.logistic (preB x0 x1 w0 u0 b0 r n) * Ideal.tanh (preB x0 x1 w3 u3 b3 r n)) := by
  have e : k0_pay3 (F := Ideal) (k0_pay4 x0) (k0_pay5 x1) (k0_pay6 x0 x1 w0 u0 b0) (k0_pay7 x0 x1 w1 u1 b1) (k0_pay8 w2) (k0_pay9 u2) b2
        w3 u3 b3 cc
      = shapeCast S1x512x512 (mulf (logistic (gateV x0 x1 w2 u2 b2))
          (tanh (k0_pay1 (F := Ideal) (k0_pay4 x0) (k0_pay5 x1) (k0_pay6 x0 x1 w0 u0 b0) (k0_pay7 x0 x1 w1 u1 b1) w3 u3 b3 cc)))
          shapeCasts_S512x512_S1x512x512 := rfl
  rw [e, shapeCast_ab_1ab_apply]
  show Ideal.logistic (gateV x0 x1 w2 u2 b2 (ix2 r n))
      * Ideal.tanh (k0_pay1 (F := Ideal) (k0_pay4 x0) (k0_pay5 x1) (k0_pay6 x0 x1 w0 u0 b0) (k0_pay7 x0 x1 w1 u1 b1) w3 u3 b3 cc (ix2 r n)) = _
  rw [gate_apply, pay1_apply, pay6_apply, pay7_apply]

end Cert.KernelIdeal.Pay

end
-- ==== Proof.Cell.lean ====
/-
  The LSTM cell as mathematics, over the extended reals, with no program in sight.

  For a batch entry b, a row r and a hidden unit n, gate g (0 input, 1 forget, 2 output, 3 candidate) has the
  pre-activation

      pre g = Σₖ x(b, r, k) · W(k, 512·g + n)  +  Σₖ h(b, r, k) · U(k, 512·g + n)  +  bias_g(r, n)

  where W (64 × 2048) and U (512 × 2048) hold the four gates' weights side by side, gate g in columns 512·g … 512·g + 511.
  The new cell state is  σ(pre 1) · c + σ(pre 0) · tanh(pre 3)  and the new hidden state  σ(pre 2) · tanh(new cell state),
  σ the logistic function. Both programs compute exactly this, in this grouping, so no law of the extended reals is needed
  to join them beyond the logistic function's own definition, 1 / (1 + e⁻ˣ).
-/
import Idealize.ShloMosaic.PureOps.Ideal
import Idealize.ShloMosaic.Lib.ValueIdx

noncomputable section

open scoped BigOperators

namespace Cert.LstmCell

open Idealize.ShloMosaic Idealize.ShloMosaic.ValueIdx

/-- Arrays of extended reals of rank two and three, indexed by coordinates. -/
abbrev Arr2 (a b : Nat) : Type := (⟨2, ![a, b]⟩ : Shape).Idx → EReal
abbrev Arr3 (a b c : Nat) : Type := (⟨3, ![a, b, c]⟩ : Shape).Idx → EReal

/-- Column `n` of gate `g` in a matrix that holds the four gates side by side. -/
def gcol (g : Fin 4) (n : Fin 512) : Fin 2048 := ⟨512 * g.val + n.val, by have := g.isLt; have := n.isLt; omega⟩

/-- Gate `g`'s pre-activation at batch entry `b`, row `r`, hidden unit `n`. -/
def pre (x : Arr3 64 512 64) (h : Arr3 64 512 512) (W : Arr2 64 2048) (U : Arr2 512 2048) (bias : Arr2 512 512)
    (g : Fin 4) (b : Fin 64) (r n : Fin 512) : EReal :=
  (∑ k : Fin 64, x (ix3 b r k) * W (ix2 k (gcol g n))) + (∑ k : Fin 512, h (ix3 b r k) * U (ix2 k (gcol g n))) + bias (ix2 r n)

/-- The new cell state at (b, r, n): forget gate times the old cell state plus input gate times candidate. -/
def cellAt (x : Arr3 64 512 64) (h c : Arr3 64 512 512) (W : Arr2 64 2048) (U : Arr2 512 2048) (bi bf bg : Arr2 512 512)
    (b : Fin 64) (r n : Fin 512) : EReal :=
  Ideal.logistic (pre x h W U bf 1 b r n) * c (ix3 b r n)
    + Ideal.logistic (pre x h W U bi 0 b r n) * Ideal.tanh (pre x h W U bg 3 b r n)

/-- The new hidden state at (b, r, n): output gate times the hyperbolic tangent of the new cell state. -/
def hiddenAt (x : Arr3 64 512 64) (h c : Arr3 64 512 512) (W : Arr2 64 2048) (U : Arr2 512 2048) (bi bf bo bg : Arr2 512 512)
    (b : Fin 64) (r n : Fin 512) : EReal :=
  Ideal.logistic (pre x h W U bo 2 b r n) * Ideal.tanh (cellAt x h c W U bi bf bg b r n)

/-- The two result arrays, whole. -/
def cellArr (x : Arr3 64 512 64) (h c : Arr3 64 512 512) (W : Arr2 64 2048) (U : Arr2 512 2048) (bi bf bg : Arr2 512 512) :
    Arr3 64 512 512 := fun j => cellAt x h c W U bi bf bg (j 0) (j 1) (j 2)
def hiddenArr (x : Arr3 64 512 64) (h c : Arr3 64 512 512) (W : Arr2 64 2048) (U : Arr2 512 2048) (bi bf bo bg : Arr2 512 512) :
    Arr3 64 512 512 := fun j => hiddenAt x h c W U bi bf bo bg (j 0) (j 1) (j 2)

/-- The word 0x3F800000 is the float 1. -/
theorem one_bits : Ideal.ofBits .f32 0x3F800000#32 = 1 := by
  simp [Ideal.ofBits, Ideal.ieee, -EReal.coe_mul]; norm_num

/-- The logistic function spelt out as a quotient, 1 / (1 + e⁻ˣ) with both ones the float word, is the logistic
    function. -/
theorem logistic_spelt (z : EReal) :
    Ideal.div (Ideal.ofBits .f32 0x3F800000#32) (Ideal.ofBits .f32 0x3F800000#32 + Ideal.exp (-z)) = Ideal.logistic z := by
  rw [one_bits]; rfl

end Cert.LstmCell

end
-- ==== Proof.KBlock.lean ====
/-
  One output block of the kernel as the cell's formula, over plain variables: if the six blocks the body is handed are
  the arrays' entries at batch entry `b` — the input, hidden-state and cell-state blocks their rows of the arrays, the
  three joined matrices themselves — then at row r and hidden unit n the stored blocks are the new cell state and the
  new hidden state at (b, r, n).

  Gate g's 512 columns of a joined matrix are read through the rectangle at column offset 512·g: entry (k, n) of the
  load is entry (k, 512·g + n) of the matrix.
-/
import proofs.«168691_j18708877541467_2_alg».proof.Proof.KIFrame
import proofs.«168691_j18708877541467_2_alg».proof.Proof.KPay
import proofs.«168691_j18708877541467_2_alg».proof.Proof.Cell

noncomputable section

open scoped BigOperators

namespace Cert.KernelIdeal.Blk

open Cert.KernelIdeal Cert.KernelIdeal.Gen Cert.KernelIdeal.Fr Cert.KernelIdeal.Pay Cert.LstmCell
open Idealize.ShloMosaic Idealize.ShloMosaic.ValueIdx

theorem hz3 : (![0, 0, 0] : Fin 3 → Nat) = fun _ => 0 := funext fun a => by fin_cases a <;> rfl

/-! ## A gate's columns through its rectangle -/

/-- Entry (k, n) of a load of 512 columns of a 64 × 2048 matrix through the rectangle at column offset `o = 512·g` is
    the matrix's entry (k, 512·g + n): a rectangle's element sits at its offset plus the coordinate inside it. -/
theorem ld64_cols {e : EltTy} (x : Vec Ideal S64x2048 e) (o : Nat)
    (inb : ∀ a, (![0, o] : Fin 2 → Nat) a + S64x512.size a ≤ S64x2048.size a) (g : Fin 4) (ho : o = 512 * g.val)
    (k : Fin 64) (n : Fin 512) :
    View.ld x (Rect.unit (s := S64x2048) ![0, o] S64x512.size inb) (ix2 k n) = x (ix2 k (gcol g n)) :=
  congrArg x (funext fun a => Fin.ext (by
    match a with
    | ⟨0, _⟩ => show 0 + 1 * k.val = k.val; omega
    | ⟨1, _⟩ => show o + 1 * n.val = 512 * g.val + n.val; omega))

/-- The same for a 512 × 2048 matrix. -/
theorem ld512_cols {e : EltTy} (x : Vec Ideal S512x2048 e) (o : Nat)
    (inb : ∀ a, (![0, o] : Fin 2 → Nat) a + S512x512.size a ≤ S512x2048.size a) (g : Fin 4) (ho : o = 512 * g.val)
    (k : Fin 512) (n : Fin 512) :
    View.ld x (Rect.unit (s := S512x2048) ![0, o] S512x512.size inb) (ix2 k n) = x (ix2 k (gcol g n)) :=
  congrArg x (funext fun a => Fin.ext (by
    match a with
    | ⟨0, _⟩ => show 0 + 1 * k.val = k.val; omega
    | ⟨1, _⟩ => show o + 1 * n.val = 512 * g.val + n.val; omega))

/-! ## A gate's pre-activation: from the blocks to the arrays -/

/-- When the input and hidden-state blocks are batch entry `b`'s rows and the gate's loaded columns are the joined
    matrices' columns of gate `g`, the pre-activation over the blocks is the one over the arrays. -/
theorem preB_eq (x0 : FVec Ideal S1x512x64 .f32) (x1 : FVec Ideal S1x512x512 .f32) (w : FVec Ideal S64x512 .bf16)
    (u : FVec Ideal S512x512 .bf16) (bb : FVec Ideal S512x512 .f32)
    (X : Arr3 64 512 64) (H : Arr3 64 512 512) (W : Arr2 64 2048) (U : Arr2 512 2048) (bias : Arr2 512 512) (g : Fin 4) (b : Fin 64)
    (h0 : ∀ r k, x0 (ix3 0 r k) = X (ix3 b r k)) (h1 : ∀ r k, x1 (ix3 0 r k) = H (ix3 b r k))
    (hw : ∀ k n, w (ix2 k n) = W (ix2 k (gcol g n))) (hu : ∀ k n, u (ix2 k n) = U (ix2 k (gcol g n)))
    (hb : ∀ r n, bb (ix2 r n) = bias (ix2 r n)) (r n : Fin 512) :
    preB x0 x1 w u bb r n = pre X H W U bias g b r n := by
  unfold preB pre
  simp only [h0, h1, hw, hu, hb]

/-! ## The two output blocks -/

section
variable (x0 : Vec Ideal S1x512x64 .f32) (x1 x2 : Vec Ideal S1x512x512 .f32) (x3 : Vec Ideal S64x2048 .bf16)
  (x4 : Vec Ideal S512x2048 .bf16) (x5 : Vec Ideal S512x2048 .f32)
  (X : Arr3 64 512 64) (H C : Arr3 64 512 512) (W : Arr2 64 2048) (U : Arr2 512 2048) (bi bf bo bg : Arr2 512 512) (b : Fin 64)
  (h0 : ∀ r k, x0 (ix3 0 r k) = X (ix3 b r k)) (h1 : ∀ r k, x1 (ix3 0 r k) = H (ix3 b r k))
  (h2 : ∀ r n, x2 (ix3 0 r n) = C (ix3 b r n))
  (h3 : ∀ k j, x3 (ix2 k j) = W (ix2 k j)) (h4 : ∀ k j, x4 (ix2 k j) = U (ix2 k j))
  (h50 : ∀ r n, x5 (ix2 r (gcol 0 n)) = bi (ix2 r n)) (h51 : ∀ r n, x5 (ix2 r (gcol 1 n)) = bf (ix2 r n))
  (h52 : ∀ r n, x5 (ix2 r (gcol 2 n)) = bo (ix2 r n)) (h53 : ∀ r n, x5 (ix2 r (gcol 3 n)) = bg (ix2 r n))
include h0 h1 h2 h3 h4 h50 h51 h53

/-- The block stored for the new cell state is the cell formula at batch entry `b`. -/
theorem cell_block (r n : Fin 512) :
    out7 x0 x1 x2 x3 x4 x5 (ix3 0 r n) = cellAt X H C W U bi bf bg b r n := by
  unfold out7
  rw [View.canon_unit_zero hz3]
  simp only [View.ld_unit_zero (S := S1x512x64) hz3, View.ld_unit_zero (S := S1x512x512) hz3]
  rw [cell_apply]
  unfold cellAt
  rw [preB_eq x0 x1 _ _ _ X H W U bf 1 b h0 h1 (fun k n => (ld64_cols x3 512 inb_S64x2048_S64x512_0_512 1 rfl k n).trans (h3 _ _)) (fun k n => (ld512_cols x4 512 inb_S512x2048_S512x512_0_512 1 rfl k n).trans (h4 _ _))
      (fun r n => (ld512_cols x5 512 inb_S512x2048_S512x512_0_512 1 rfl r n).trans (h51 r n)),
    preB_eq x0 x1 _ _ _ X H W U bi 0 b h0 h1 (fun k n => (ld64_cols x3 0 inb_S64x2048_S64x512_0_0 0 rfl k n).trans (h3 _ _)) (fun k n => (ld512_cols x4 0 inb_S512x2048_S512x512_0_0 0 rfl k n).trans (h4 _ _))
      (fun r n => (ld512_cols x5 0 inb_S512x2048_S512x512_0_0 0 rfl r n).trans (h50 r n)),
    preB_eq x0 x1 _ _ _ X H W U bg 3 b h0 h1 (fun k n => (ld64_cols x3 1536 inb_S64x2048_S64x512_0_1536 3 rfl k n).trans (h3 _ _)) (fun k n => (ld512_cols x4 1536 inb_S512x2048_S512x512_0_1536 3 rfl k n).trans (h4 _ _))
      (fun r n => (ld512_cols x5 1536 inb_S512x2048_S512x512_0_1536 3 rfl r n).trans (h53 r n)),
    h2]

include h52 in
/-- The block stored for the new hidden state is the hidden-state formula at batch entry `b`. -/
theorem hidden_block (r n : Fin 512) :
    out6 x0 x1 x2 x3 x4 x5 (ix3 0 r n) = hiddenAt X H C W U bi bf bo bg b r n := by
  unfold out6
  rw [View.canon_unit_zero hz3]
  simp only [View.ld_unit_zero (S := S1x512x64) hz3, View.ld_unit_zero (S := S1x512x512) hz3]
  rw [hidden_apply]
  unfold hiddenAt cellAt
  rw [preB_eq x0 x1 _ _ _ X H W U bo 2 b h0 h1 (fun k n => (ld64_cols x3 1024 inb_S64x2048_S64x512_0_1024 2 rfl k n).trans (h3 _ _)) (fun k n => (ld512_cols x4 1024 inb_S512x2048_S512x512_0_1024 2 rfl k n).trans (h4 _ _))
      (fun r n => (ld512_cols x5 1024 inb_S512x2048_S512x512_0_1024 2 rfl r n).trans (h52 r n)),
    preB_eq x0 x1 _ _ _ X H W U bf 1 b h0 h1 (fun k n => (ld64_cols x3 512 inb_S64x2048_S64x512_0_512 1 rfl k n).trans (h3 _ _)) (fun k n => (ld512_cols x4 512 inb_S512x2048_S512x512_0_512 1 rfl k n).trans (h4 _ _))
      (fun r n => (ld512_cols x5 512 inb_S512x2048_S512x512_0_512 1 rfl r n).trans (h51 r n)),
    preB_eq x0 x1 _ _ _ X H W U bi 0 b h0 h1 (fun k n => (ld64_cols x3 0 inb_S64x2048_S64x512_0_0 0 rfl k n).trans (h3 _ _)) (fun k n => (ld512_cols x4 0 inb_S512x2048_S512x512_0_0 0 rfl k n).trans (h4 _ _))
      (fun r n => (ld512_cols x5 0 inb_S512x2048_S512x512_0_0 0 rfl r n).trans (h50 r n)),
    preB_eq x0 x1 _ _ _ X H W U bg 3 b h0 h1 (fun k n => (ld64_cols x3 1536 inb_S64x2048_S64x512_0_1536 3 rfl k n).trans (h3 _ _)) (fun k n => (ld512_cols x4 1536 inb_S512x2048_S512x512_0_1536 3 rfl k n).trans (h4 _ _))
      (fun r n => (ld512_cols x5 1536 inb_S512x2048_S512x512_0_1536 3 rfl r n).trans (h53 r n)),
    h2]

end

end Cert.KernelIdeal.Blk

end
-- ==== Proof.Join.lean ====
/-
  Four matrices joined side by side along the column axis, read at an entry: column 512·g + n of the join is column n of
  the g-th piece.
-/
import proofs.«168691_j18708877541467_2_alg».proof.Proof.Cell
import Idealize.ShloMosaic.Lib.Pipeline.Value

noncomputable section

namespace Cert.LstmCell

open Idealize.ShloMosaic Idealize.ShloMosaic.ValueIdx

theorem cat64 : Shape.Concatenates [(⟨2, ![64, 512]⟩ : Shape), ⟨2, ![64, 512]⟩, ⟨2, ![64, 512]⟩, ⟨2, ![64, 512]⟩] ⟨2, ![64, 2048]⟩ 1 := by
  decide
theorem cat512 : Shape.Concatenates [(⟨2, ![512, 512]⟩ : Shape), ⟨2, ![512, 512]⟩, ⟨2, ![512, 512]⟩, ⟨2, ![512, 512]⟩] ⟨2, ![512, 2048]⟩ 1 := by
  decide

/-- Four 64 × 512 matrices side by side. -/
def join64 (a0 a1 a2 a3 : Arr2 64 512) : Arr2 64 2048 :=
  concatenate ⟨2, ![64, 2048]⟩ 1 [⟨⟨2, ![64, 512]⟩, a0⟩, ⟨⟨2, ![64, 512]⟩, a1⟩, ⟨⟨2, ![64, 512]⟩, a2⟩, ⟨⟨2, ![64, 512]⟩, a3⟩] cat64
/-- Four 512 × 512 matrices side by side. -/
def join512 (a0 a1 a2 a3 : Arr2 512 512) : Arr2 512 2048 :=
  concatenate ⟨2, ![512, 2048]⟩ 1 [⟨⟨2, ![512, 512]⟩, a0⟩, ⟨⟨2, ![512, 512]⟩, a1⟩, ⟨⟨2, ![512, 512]⟩, a2⟩, ⟨⟨2, ![512, 512]⟩, a3⟩] cat512

/-- Gate 0's columns of the join are the first piece. -/
theorem join512_at0 (a0 a1 a2 a3 : Arr2 512 512) (r n : Fin 512) : join512 a0 a1 a2 a3 (ix2 r (gcol 0 n)) = a0 (ix2 r n) :=
  concatenate_apply_piece (t := ⟨2, ![512, 2048]⟩) (1 : Fin 2)
    [⟨⟨2, ![512, 512]⟩, a0⟩, ⟨⟨2, ![512, 512]⟩, a1⟩, ⟨⟨2, ![512, 512]⟩, a2⟩, ⟨⟨2, ![512, 512]⟩, a3⟩] cat512 (ix2 r (gcol 0 n)) 0 (by simp) ⟨2, ![512, 512]⟩ a0 rfl rfl 0 rfl (ix2 r n)
    (fun b hb => by match b with | ⟨0, _⟩ => rfl | ⟨1, _⟩ => exact absurd rfl hb)
    (by show 0 + n.val = 512 * 0 + n.val; omega)
/-- Gate 1's columns are the second piece. -/
theorem join512_at1 (a0 a1 a2 a3 : Arr2 512 512) (r n : Fin 512) : join512 a0 a1 a2 a3 (ix2 r (gcol 1 n)) = a1 (ix2 r n) :=
  concatenate_apply_piece (t := ⟨2, ![512, 2048]⟩) (1 : Fin 2)
    [⟨⟨2, ![512, 512]⟩, a0⟩, ⟨⟨2, ![512, 512]⟩, a1⟩, ⟨⟨2, ![512, 512]⟩, a2⟩, ⟨⟨2, ![512, 512]⟩, a3⟩] cat512 (ix2 r (gcol 1 n)) 1 (by simp) ⟨2, ![512, 512]⟩ a1 rfl rfl 512 rfl (ix2 r n)
    (fun b hb => by match b with | ⟨0, _⟩ => rfl | ⟨1, _⟩ => exact absurd rfl hb)
    (by show 512 + n.val = 512 * 1 + n.val; omega)
/-- Gate 2's columns are the third piece. -/
theorem join512_at2 (a0 a1 a2 a3 : Arr2 512 512) (r n : Fin 512) : join512 a0 a1 a2 a3 (ix2 r (gcol 2 n)) = a2 (ix2 r n) :=
  concatenate_apply_piece (t := ⟨2, ![512, 2048]⟩) (1 : Fin 2)
    [⟨⟨2, ![512, 512]⟩, a0⟩, ⟨⟨2, ![512, 512]⟩, a1⟩, ⟨⟨2, ![512, 512]⟩, a2⟩, ⟨⟨2, ![512, 512]⟩, a3⟩] cat512 (ix2 r (gcol 2 n)) 2 (by simp) ⟨2, ![512, 512]⟩ a2 rfl rfl 1024 rfl (ix2 r n)
    (fun b hb => by match b with | ⟨0, _⟩ => rfl | ⟨1, _⟩ => exact absurd rfl hb)
    (by show 1024 + n.val = 512 * 2 + n.val; omega)
/-- Gate 3's columns are the fourth piece. -/
theorem join512_at3 (a0 a1 a2 a3 : Arr2 512 512) (r n : Fin 512) : join512 a0 a1 a2 a3 (ix2 r (gcol 3 n)) = a3 (ix2 r n) :=
  concatenate_apply_piece (t := ⟨2, ![512, 2048]⟩) (1 : Fin 2)
    [⟨⟨2, ![512, 512]⟩, a0⟩, ⟨⟨2, ![512, 512]⟩, a1⟩, ⟨⟨2, ![512, 512]⟩, a2⟩, ⟨⟨2, ![512, 512]⟩, a3⟩] cat512 (ix2 r (gcol 3 n)) 3 (by simp) ⟨2, ![512, 512]⟩ a3 rfl rfl 1536 rfl (ix2 r n)
    (fun b hb => by match b with | ⟨0, _⟩ => rfl | ⟨1, _⟩ => exact absurd rfl hb)
    (by show 1536 + n.val = 512 * 3 + n.val; omega)

end Cert.LstmCell

end
-- ==== Proof.KValue.lean ====
/-
  From blocks to arrays: what the two result arrays hold when the kernel's program ends, at the ideal instance.

  Grid point t handles batch entry t: its blocks of the input, the hidden state, the cell state and the two results are
  the arrays' slabs at leading index t, and its blocks of the three joined matrices are the matrices whole. The region
  finds the joined input and recurrent weights as the joins of the four gates' matrices (the change of float format
  between is the identity here) and the joined biases as the join of the four biases, whose gate-g columns are bias g.
  So what point t writes back is the slab at t of the cell formula's arrays; the 64 slabs cover each result array; the
  arrays therefore end holding the new hidden state and the new cell state, whole.
-/
import proofs.«168691_j18708877541467_2_alg».proof.Proof.KBlock
import proofs.«168691_j18708877541467_2_alg».proof.Proof.Join
import Idealize.ShloMosaic.Lib.Pipeline.Value
import Idealize.ShloMosaic.Lib.StableHlo.Run

noncomputable section

namespace Cert.KernelIdeal.KVal

open Cert.KernelIdeal Cert.KernelIdeal.Gen Cert.KernelIdeal.Fr Cert.KernelIdeal.Blk Cert.LstmCell
open Idealize.ShloMosaic Idealize.ShloMosaic.TcCoe Idealize.SL.Sem Idealize.ShloMosaic.ValueIdx Idealize.ShloMosaic.StableHlo
open Idealize.ShloMosaic.Pipeline (Dat)

variable (m : (ℓ : Loc nD τ sig) → Buf (Elt Ideal) ℓ) (ρ : Dev nD → PrngReg)

/-! ## The joined matrices as the region finds them -/

/-- The joined input weights, recurrent weights and biases of core `c`, from the launch contents. -/
def joinedW (c : Dev nD) : Arr2 64 2048 := join64 (m ((c.tc : Thread nD τ).loc main_arg3)) (m ((c.tc : Thread nD τ).loc main_arg6)) (m ((c.tc : Thread nD τ).loc main_arg9)) (m ((c.tc : Thread nD τ).loc main_arg12))
def joinedU (c : Dev nD) : Arr2 512 2048 := join512 (m ((c.tc : Thread nD τ).loc main_arg4)) (m ((c.tc : Thread nD τ).loc main_arg7)) (m ((c.tc : Thread nD τ).loc main_arg10)) (m ((c.tc : Thread nD τ).loc main_arg13))
def joinedB (c : Dev nD) : Arr2 512 2048 := join512 (m ((c.tc : Thread nD τ).loc main_arg5)) (m ((c.tc : Thread nD τ).loc main_arg8)) (m ((c.tc : Thread nD τ).loc main_arg11)) (m ((c.tc : Thread nD τ).loc main_arg14))

theorem V_main_v1 (c : Dev nD) : (V m c main_v1 : Arr2 64 2048) = joinedW m c := by
  dsimp only [V, hostOps0]; after_results; rfl
theorem V_main_v3 (c : Dev nD) : (V m c main_v3 : Arr2 512 2048) = joinedU m c := by
  dsimp only [V, hostOps0]; after_results; rfl
theorem V_main_v4 (c : Dev nD) : (V m c main_v4 : Arr2 512 2048) = joinedB m c := by
  dsimp only [V, hostOps0]; after_results; rfl

/-! ## The result arrays, as the cell's formula of the launch contents -/

/-- The new cell state and the new hidden state of core `c`, whole. -/
def cellG (c : Dev nD) : Arr3 64 512 512 :=
  cellArr (m ((c.tc : Thread nD τ).loc main_arg0)) (m ((c.tc : Thread nD τ).loc main_arg1)) (m ((c.tc : Thread nD τ).loc main_arg2)) (joinedW m c) (joinedU m c) (m ((c.tc : Thread nD τ).loc main_arg5)) (m ((c.tc : Thread nD τ).loc main_arg8)) (m ((c.tc : Thread nD τ).loc main_arg14))
def hiddenG (c : Dev nD) : Arr3 64 512 512 :=
  hiddenArr (m ((c.tc : Thread nD τ).loc main_arg0)) (m ((c.tc : Thread nD τ).loc main_arg1)) (m ((c.tc : Thread nD τ).loc main_arg2)) (joinedW m c) (joinedU m c) (m ((c.tc : Thread nD τ).loc main_arg5)) (m ((c.tc : Thread nD τ).loc main_arg8)) (m ((c.tc : Thread nD τ).loc main_arg11)) (m ((c.tc : Thread nD τ).loc main_arg14))

/-! ## The index maps, decided over the 64 grid points -/

theorem idx0 : ∀ t : Fin cfg0.N, win0_0.index t (0 : Fin 3) = t.val ∧ win0_0.index t (1 : Fin 3) = 0 ∧ win0_0.index t (2 : Fin 3) = 0 :=
  (by decide +kernel : ∀ t : Fin grid0.N, _)
theorem idx1 : ∀ t : Fin cfg0.N, win0_1.index t (0 : Fin 3) = t.val ∧ win0_1.index t (1 : Fin 3) = 0 ∧ win0_1.index t (2 : Fin 3) = 0 :=
  (by decide +kernel : ∀ t : Fin grid0.N, _)
theorem idx2 : ∀ t : Fin cfg0.N, win0_2.index t (0 : Fin 3) = t.val ∧ win0_2.index t (1 : Fin 3) = 0 ∧ win0_2.index t (2 : Fin 3) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 3) = t.val ∧ win0_6.index t (1 : Fin 3) = 0 ∧ win0_6.index t (2 : Fin 3) = 0 :=
  (by decide +kernel : ∀ t : Fin grid0.N, _)
theorem idx7 : ∀ t : Fin cfg0.N, win0_7.index t (0 : Fin 3) = t.val ∧ win0_7.index t (1 : Fin 3) = 0 ∧ win0_7.index t (2 : Fin 3) = 0 :=
  (by decide +kernel : ∀ t : Fin grid0.N, _)

/-- The batch entry grid point `t` handles. -/
def bt (t : Fin cfg0.N) : Fin 64 := Fin.cast N_0 t

/-! ## Where a block's entry sits in its array: block index × block size + the coordinate inside the block -/

theorem emb0 (t : Fin cfg0.N) (r : Fin 512) (k : Fin 64) :
    (((cfg0.win 0).blk t).view.emb (ix3 (0 : Fin 1) r k) : S64x512x64.Idx) = ix3 (bt t) r k := by
  obtain ⟨e0, e1, e2⟩ := idx0 t
  funext a; apply Fin.ext
  match a with
  | ⟨0, _⟩ => show win0_0.index t (0 : Fin 3) * 1 + 1 * 0 = t.val; omega
  | ⟨1, _⟩ => show win0_0.index t (1 : Fin 3) * 512 + 1 * r.val = r.val; omega
  | ⟨2, _⟩ => show win0_0.index t (2 : Fin 3) * 64 + 1 * k.val = k.val; omega
theorem emb1 (t : Fin cfg0.N) (r k : Fin 512) :
    (((cfg0.win 1).blk t).view.emb (ix3 (0 : Fin 1) r k) : S64x512x512.Idx) = ix3 (bt t) r k := by
  obtain ⟨e0, e1, e2⟩ := idx1 t
  funext a; apply Fin.ext
  match a with
  | ⟨0, _⟩ => show win0_1.index t (0 : Fin 3) * 1 + 1 * 0 = t.val; omega
  | ⟨1, _⟩ => show win0_1.index t (1 : Fin 3) * 512 + 1 * r.val = r.val; omega
  | ⟨2, _⟩ => show win0_1.index t (2 : Fin 3) * 512 + 1 * k.val = k.val; omega
theorem emb2 (t : Fin cfg0.N) (r k : Fin 512) :
    (((cfg0.win 2).blk t).view.emb (ix3 (0 : Fin 1) r k) : S64x512x512.Idx) = ix3 (bt t) r k := by
  obtain ⟨e0, e1, e2⟩ := idx2 t
  funext a; apply Fin.ext
  match a with
  | ⟨0, _⟩ => show win0_2.index t (0 : Fin 3) * 1 + 1 * 0 = t.val; omega
  | ⟨1, _⟩ => show win0_2.index t (1 : Fin 3) * 512 + 1 * r.val = r.val; omega
  | ⟨2, _⟩ => show win0_2.index t (2 : Fin 3) * 512 + 1 * k.val = k.val; omega
theorem emb3 (t : Fin cfg0.N) (k : Fin 64) (j : Fin 2048) :
    (((cfg0.win 3).blk t).view.emb (ix2 k j) : S64x2048.Idx) = ix2 k j := by
  obtain ⟨e0, e1⟩ := idx3 t
  funext a; apply Fin.ext
  match a with
  | ⟨0, _⟩ => show win0_3.index t (0 : Fin 2) * 64 + 1 * k.val = k.val; omega
  | ⟨1, _⟩ => show win0_3.index t (1 : Fin 2) * 2048 + 1 * j.val = j.val; omega
theorem emb4 (t : Fin cfg0.N) (k : Fin 512) (j : Fin 2048) :
    (((cfg0.win 4).blk t).view.emb (ix2 k j) : S512x2048.Idx) = ix2 k j := by
  obtain ⟨e0, e1⟩ := idx4 t
  funext a; apply Fin.ext
  match a with
  | ⟨0, _⟩ => show win0_4.index t (0 : Fin 2) * 512 + 1 * k.val = k.val; omega
  | ⟨1, _⟩ => show win0_4.index t (1 : Fin 2) * 2048 + 1 * j.val = j.val; omega
theorem emb5 (t : Fin cfg0.N) (k : Fin 512) (j : Fin 2048) :
    (((cfg0.win 5).blk t).view.emb (ix2 k j) : S512x2048.Idx) = ix2 k j := by
  obtain ⟨e0, e1⟩ := idx5 t
  funext a; apply Fin.ext
  match a with
  | ⟨0, _⟩ => show win0_5.index t (0 : Fin 2) * 512 + 1 * k.val = k.val; omega
  | ⟨1, _⟩ => show win0_5.index t (1 : Fin 2) * 2048 + 1 * j.val = j.val; omega
theorem emb6 (t : Fin cfg0.N) (r k : Fin 512) :
    (((cfg0.win 6).blk t).view.emb (ix3 (0 : Fin 1) r k) : S64x512x512.Idx) = ix3 (bt t) r k := by
  obtain ⟨e0, e1, e2⟩ := idx6 t
  funext a; apply Fin.ext
  match a with
  | ⟨0, _⟩ => show win0_6.index t (0 : Fin 3) * 1 + 1 * 0 = t.val; omega
  | ⟨1, _⟩ => show win0_6.index t (1 : Fin 3) * 512 + 1 * r.val = r.val; omega
  | ⟨2, _⟩ => show win0_6.index t (2 : Fin 3) * 512 + 1 * k.val = k.val; omega
theorem emb7 (t : Fin cfg0.N) (r k : Fin 512) :
    (((cfg0.win 7).blk t).view.emb (ix3 (0 : Fin 1) r k) : S64x512x512.Idx) = ix3 (bt t) r k := by
  obtain ⟨e0, e1, e2⟩ := idx7 t
  funext a; apply Fin.ext
  match a with
  | ⟨0, _⟩ => show win0_7.index t (0 : Fin 3) * 1 + 1 * 0 = t.val; omega
  | ⟨1, _⟩ => show win0_7.index t (1 : Fin 3) * 512 + 1 * r.val = r.val; omega
  | ⟨2, _⟩ => show win0_7.index t (2 : Fin 3) * 512 + 1 * k.val = k.val; omega

/-! ## Each input window's block at a point -/

theorem blk0 (c : Dev nD) (t : Fin cfg0.N) (r : Fin 512) (k : Fin 64) :
    iblk m c 0 t (ix3 (0 : Fin 1) r k) = (m ((c.tc : Thread nD τ).loc main_arg0) : Arr3 64 512 64) (ix3 (bt t) r k) :=
  (show iblk m c 0 t (ix3 (0 : Fin 1) r k) = V m c main_arg0 (ix3 (bt t) r k) from congrArg (V m c main_arg0) (emb0 t r k)).trans
    (congrFun (V_kept m c main_arg0 (by decide) (by decide) (by decide) (by decide) (by decide)) _)
theorem blk1 (c : Dev nD) (t : Fin cfg0.N) (r k : Fin 512) :
    iblk m c 1 t (ix3 (0 : Fin 1) r k) = (m ((c.tc : Thread nD τ).loc main_arg1) : Arr3 64 512 512) (ix3 (bt t) r k) :=
  (show iblk m c 1 t (ix3 (0 : Fin 1) r k) = V m c main_arg1 (ix3 (bt t) r k) from congrArg (V m c main_arg1) (emb1 t r k)).trans
    (congrFun (V_kept m c main_arg1 (by decide) (by decide) (by decide) (by decide) (by decide)) _)
theorem blk2 (c : Dev nD) (t : Fin cfg0.N) (r k : Fin 512) :
    iblk m c 2 t (ix3 (0 : Fin 1) r k) = (m ((c.tc : Thread nD τ).loc main_arg2) : Arr3 64 512 512) (ix3 (bt t) r k) :=
  (show iblk m c 2 t (ix3 (0 : Fin 1) r k) = V m c main_arg2 (ix3 (bt t) r k) from congrArg (V m c main_arg2) (emb2 t r k)).trans
    (congrFun (V_kept m c main_arg2 (by decide) (by decide) (by decide) (by decide) (by decide)) _)
theorem blk3 (c : Dev nD) (t : Fin cfg0.N) (k : Fin 64) (j : Fin 2048) :
    iblk m c 3 t (ix2 k j) = joinedW m c (ix2 k j) :=
  (show iblk m c 3 t (ix2 k j) = V m c main_v1 (ix2 k j) from congrArg (V m c main_v1) (emb3 t k j)).trans
    (congrFun (V_main_v1 m c) _)
theorem blk4 (c : Dev nD) (t : Fin cfg0.N) (k : Fin 512) (j : Fin 2048) :
    iblk m c 4 t (ix2 k j) = joinedU m c (ix2 k j) :=
  (show iblk m c 4 t (ix2 k j) = V m c main_v3 (ix2 k j) from congrArg (V m c main_v3) (emb4 t k j)).trans
    (congrFun (V_main_v3 m c) _)
theorem blk5 (c : Dev nD) (t : Fin cfg0.N) (k : Fin 512) (j : Fin 2048) :
    iblk m c 5 t (ix2 k j) = joinedB m c (ix2 k j) :=
  (show iblk m c 5 t (ix2 k j) = V m c main_v4 (ix2 k j) from congrArg (V m c main_v4) (emb5 t k j)).trans
    (congrFun (V_main_v4 m c) _)

/-! ## What a point writes back -/

/-- Point `t` writes back, to the new cell state's array, the slab at `t` of the cell formula's array. -/
theorem flushed7_eq (c : Dev nD) (t : Fin cfg0.N) :
    (dats m 0 c).flushed 7 t = ((cfg0.win 7).blk t).view.read (Elt Ideal) (cellG m c) := by
  show (cfg0.win 7).cut (grid0.coords t) ((dats m 0 c).after 7 t) = _
  rw [after7]
  funext y
  obtain ⟨u, r, n, rfl⟩ : ∃ (u : Fin 1) (r n : Fin 512), y = ix3 u r n := ⟨y 0, y 1, y 2, eq_ix3 (n0 := 1) (n1 := 512) (n2 := 512) y⟩
  obtain rfl : u = 0 := Subsingleton.elim _ _
  show out7 (iblk m c 0 t) (iblk m c 1 t) (iblk m c 2 t) (iblk m c 3 t) (iblk m c 4 t) (iblk m c 5 t) (ix3 (0 : Fin 1) r n)
    = cellG m c (((cfg0.win 7).blk t).view.emb (ix3 (0 : Fin 1) r n))
  rw [emb7 t r n]
  exact cell_block (iblk m c 0 t) (iblk m c 1 t) (iblk m c 2 t) (iblk m c 3 t) (iblk m c 4 t) (iblk m c 5 t)
    _ _ _ _ _ _ _ _ (bt t) (blk0 m c t) (blk1 m c t) (blk2 m c t) (blk3 m c t) (blk4 m c t)
    (fun r n => (blk5 m c t r (gcol 0 n)).trans (join512_at0 _ _ _ _ r n))
    (fun r n => (blk5 m c t r (gcol 1 n)).trans (join512_at1 _ _ _ _ r n))
    (fun r n => (blk5 m c t r (gcol 3 n)).trans (join512_at3 _ _ _ _ r n)) r n

/-- Point `t` writes back, to the new hidden state's array, the slab at `t` of the hidden-state formula's array. -/
theorem flushed6_eq (c : Dev nD) (t : Fin cfg0.N) :
    (dats m 0 c).flushed 6 t = ((cfg0.win 6).blk t).view.read (Elt Ideal) (hiddenG m c) := by
  show (cfg0.win 6).cut (grid0.coords t) ((dats m 0 c).after 6 t) = _
  rw [after6]
  funext y
  obtain ⟨u, r, n, rfl⟩ : ∃ (u : Fin 1) (r n : Fin 512), y = ix3 u r n := ⟨y 0, y 1, y 2, eq_ix3 (n0 := 1) (n1 := 512) (n2 := 512) y⟩
  obtain rfl : u = 0 := Subsingleton.elim _ _
  show out6 (iblk m c 0 t) (iblk m c 1 t) (iblk m c 2 t) (iblk m c 3 t) (iblk m c 4 t) (iblk m c 5 t) (ix3 (0 : Fin 1) r n)
    = hiddenG m c (((cfg0.win 6).blk t).view.emb (ix3 (0 : Fin 1) r n))
  rw [emb6 t r n]
  exact hidden_block (iblk m c 0 t) (iblk m c 1 t) (iblk m c 2 t) (iblk m c 3 t) (iblk m c 4 t) (iblk m c 5 t)
    _ _ _ _ _ _ _ _ _ (bt t) (blk0 m c t) (blk1 m c t) (blk2 m c t) (blk3 m c t) (blk4 m c t)
    (fun r n => (blk5 m c t r (gcol 0 n)).trans (join512_at0 _ _ _ _ r n))
    (fun r n => (blk5 m c t r (gcol 1 n)).trans (join512_at1 _ _ _ _ r n))
    (fun r n => (blk5 m c t r (gcol 2 n)).trans (join512_at2 _ _ _ _ r n))
    (fun r n => (blk5 m c t r (gcol 3 n)).trans (join512_at3 _ _ _ _ r n)) r n

/-! ## The slabs cover the result arrays -/

/-- An entry of a result array is in point `t`'s block iff each coordinate is in the block's range on its axis. -/
theorem mem_blk6 (t : Fin cfg0.N) (i : S64x512x512.Idx) :
    i ∈ ((cfg0.win 6).blk t).view.set ↔ ∀ a : Fin 3, win0_6.index t a * S1x512x512.size a ≤ (i a).val
      ∧ (i a).val < win0_6.index t a * S1x512x512.size a + S1x512x512.size a := by
  show i ∈ ((View.whole main_v5_0).slice (win0_6.rect t)).set ↔ _
  rw [View.set_slice_whole, Rect.mem_set_unit]
  exact Iff.rfl
theorem mem_blk7 (t : Fin cfg0.N) (i : S64x512x512.Idx) :
    i ∈ ((cfg0.win 7).blk t).view.set ↔ ∀ a : Fin 3, win0_7.index t a * S1x512x512.size a ≤ (i a).val
      ∧ (i a).val < win0_7.index t a * S1x512x512.size a + S1x512x512.size a := by
  show i ∈ ((View.whole main_v5_1).slice (win0_7.rect t)).set ↔ _
  rw [View.set_slice_whole, Rect.mem_set_unit]
  exact Iff.rfl

/-- Every entry is in the block of the point named by its leading coordinate. -/
theorem cover6 (i : S64x512x512.Idx) : ∃ t : Fin cfg0.N, (cfg0.win 6).flush t = true ∧ i ∈ ((cfg0.win 6).blk t).view.set := by
  have h0 : (i 0).val < 64 := (i 0).isLt
  have h1 : (i 1).val < 512 := (i 1).isLt
  have h2 : (i 2).val < 512 := (i 2).isLt
  refine ⟨⟨(i 0).val, lt_of_lt_of_eq h0 N_0.symm⟩, flush0_6 _, ?_⟩
  rw [mem_blk6]
  obtain ⟨e0, e1, e2⟩ := idx6 ⟨(i 0).val, lt_of_lt_of_eq h0 N_0.symm⟩
  have e0' : win0_6.index ⟨(i 0).val, lt_of_lt_of_eq h0 N_0.symm⟩ (0 : Fin 3) = (i 0).val := e0
  intro a
  match a with
  | ⟨0, _⟩ => show win0_6.index ⟨(i 0).val, _⟩ (0 : Fin 3) * 1 ≤ (i 0).val ∧ (i 0).val < win0_6.index ⟨(i 0).val, _⟩ (0 : Fin 3) * 1 + 1; omega
  | ⟨1, _⟩ => show win0_6.index ⟨(i 0).val, _⟩ (1 : Fin 3) * 512 ≤ (i 1).val ∧ (i 1).val < win0_6.index ⟨(i 0).val, _⟩ (1 : Fin 3) * 512 + 512; omega
  | ⟨2, _⟩ => show win0_6.index ⟨(i 0).val, _⟩ (2 : Fin 3) * 512 ≤ (i 2).val ∧ (i 2).val < win0_6.index ⟨(i 0).val, _⟩ (2 : Fin 3) * 512 + 512; omega
theorem cover7 (i : S64x512x512.Idx) : ∃ t : Fin cfg0.N, (cfg0.win 7).flush t = true ∧ i ∈ ((cfg0.win 7).blk t).view.set := by
  have h0 : (i 0).val < 64 := (i 0).isLt
  have h1 : (i 1).val < 512 := (i 1).isLt
  have h2 : (i 2).val < 512 := (i 2).isLt
  refine ⟨⟨(i 0).val, lt_of_lt_of_eq h0 N_0.symm⟩, flush0_7 _, ?_⟩
  rw [mem_blk7]
  obtain ⟨e0, e1, e2⟩ := idx7 ⟨(i 0).val, lt_of_lt_of_eq h0 N_0.symm⟩
  have e0' : win0_7.index ⟨(i 0).val, lt_of_lt_of_eq h0 N_0.symm⟩ (0 : Fin 3) = (i 0).val := e0
  intro a
  match a with
  | ⟨0, _⟩ => show win0_7.index ⟨(i 0).val, _⟩ (0 : Fin 3) * 1 ≤ (i 0).val ∧ (i 0).val < win0_7.index ⟨(i 0).val, _⟩ (0 : Fin 3) * 1 + 1; omega
  | ⟨1, _⟩ => show win0_7.index ⟨(i 0).val, _⟩ (1 : Fin 3) * 512 ≤ (i 1).val ∧ (i 1).val < win0_7.index ⟨(i 0).val, _⟩ (1 : Fin 3) * 512 + 512; omega
  | ⟨2, _⟩ => show win0_7.index ⟨(i 0).val, _⟩ (2 : Fin 3) * 512 ≤ (i 2).val ∧ (i 2).val < win0_7.index ⟨(i 0).val, _⟩ (2 : Fin 3) * 512 + 512; omega

/-! ## The arrays after the run, and the run -/

theorem final6 (c : Dev nD) : (dats m 0 c).arrAt 6 cfg0.N = hiddenG m c :=
  (dats m 0 c).arrAt_eq_of_cover 6 (hiddenG m c) (fun t _ => flushed6_eq m c t) cover6
theorem final7 (c : Dev nD) : (dats m 0 c).arrAt 7 cfg0.N = cellG m c :=
  (dats m 0 c).arrAt_eq_of_cover 7 (cellG m c) (fun t _ => flushed7_eq m c t) cover7

/-- Every weakly fair execution of the kernel's program terminates with the first result array at the new hidden state,
    the second at the new cell state, and the fifteen arguments as launched. -/
theorem run : θ_run defs (onTc (τ := τ) (main (F := Ideal))) ⟨m, fun _ => 0, ρ⟩ fun r => ∀ c : Dev nD,
      r.2.mem ((c.tc : Thread nD τ).loc main_v5_0) = hiddenG m c
      ∧ r.2.mem ((c.tc : Thread nD τ).loc main_v5_1) = cellG m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun r h c => ⟨((h c).1 6).trans (final6 m c), ((h c).1 7).trans (final7 m c),
      kept_of_post m (dats m) (A_eq m) r h c⟩)
    (run_main m ρ)

end Cert.KernelIdeal.KVal

end
-- ==== Proof.RefSide.lean ====
/-
  The reference program's two results, read index by index at the ideal instance, are the cell formula's arrays.

  The reference flattens batch entry and row into one axis of 32768 (row b·512 + r), multiplies by the joined weight
  matrices, adds the two products, reshapes the 2048 columns into 4 gates × 512 hidden units and slices out each gate: the
  gate-g slice at (b, r, n) is the sum's entry at row b·512 + r, column 512·g + n. To it the gate's bias is added,
  broadcast over the batch axis; the logistic function is spelt 1 / (1 + e⁻ˣ).
-/
import proofs.«168691_j18708877541467_2_alg».proof.Proof.Gen.ReferenceIdeal.Read
import proofs.«168691_j18708877541467_2_alg».proof.Proof.Cell
import proofs.«168691_j18708877541467_2_alg».proof.Proof.Join

noncomputable section

open scoped BigOperators

namespace Cert.ReferenceIdeal.RefSide

open Cert.ReferenceIdeal Cert.ReferenceIdeal.Gen Cert.ReferenceIdeal.Read Cert.LstmCell
open Idealize.ShloMosaic Idealize.ShloMosaic.ValueIdx

/-- Batch entry `b`, row `r` on the flattened axis. -/
def row (b : Fin 64) (r : Fin 512) : Fin 32768 := ⟨b.val * 512 + r.val, by have := b.isLt; have := r.isLt; omega⟩

/-! ## The index arithmetic of the reshapes and slices -/

theorem i0 (b : Fin 64) (r : Fin 512) (k : Fin 64) : idx_main_v0 (ix2 (row b r) k) = ix3 b r k :=
  funext fun a => Fin.ext (by
    have hb := b.isLt; have hr := r.isLt; have hk := k.isLt
    match a with
    | ⟨0, _⟩ => show ((b.val * 512 + r.val) * 64 + k.val) / 32768 = b.val; omega
    | ⟨1, _⟩ => show ((b.val * 512 + r.val) * 64 + k.val) / 64 % 512 = r.val; omega
    | ⟨2, _⟩ => show ((b.val * 512 + r.val) * 64 + k.val) % 64 = k.val; omega)
theorem i1 (b : Fin 64) (r k : Fin 512) : idx_main_v1 (ix2 (row b r) k) = ix3 b r k :=
  funext fun a => Fin.ext (by
    have hb := b.isLt; have hr := r.isLt; have hk := k.isLt
    match a with
    | ⟨0, _⟩ => show ((b.val * 512 + r.val) * 512 + k.val) / 262144 = b.val; omega
    | ⟨1, _⟩ => show ((b.val * 512 + r.val) * 512 + k.val) / 512 % 512 = r.val; omega
    | ⟨2, _⟩ => show ((b.val * 512 + r.val) * 512 + k.val) % 512 = k.val; omega)
theorem l4 (R : Fin 32768) (C : Fin 2048) (k : Fin 64) : lidx_main_v4 (ix2 R C) k = ix2 R k :=
  funext fun a => Fin.ext (by match a with | ⟨0, _⟩ => rfl | ⟨1, _⟩ => rfl)
theorem r4 (R : Fin 32768) (C : Fin 2048) (k : Fin 64) : ridx_main_v4 (ix2 R C) k = ix2 k C :=
  funext fun a => Fin.ext (by match a with | ⟨0, _⟩ => rfl | ⟨1, _⟩ => rfl)
theorem l5 (R : Fin 32768) (C : Fin 2048) (k : Fin 512) : lidx_main_v5 (ix2 R C) k = ix2 R k :=
  funext fun a => Fin.ext (by match a with | ⟨0, _⟩ => rfl | ⟨1, _⟩ => rfl)
theorem r5 (R : Fin 32768) (C : Fin 2048) (k : Fin 512) : ridx_main_v5 (ix2 R C) k = ix2 k C :=
  funext fun a => Fin.ext (by match a with | ⟨0, _⟩ => rfl | ⟨1, _⟩ => rfl)

/-- The reshape of the 2048 columns into 4 × 512: entry (b, r, g, n) is row b·512 + r, column 512·g + n. -/
theorem i7 (b : Fin 64) (r : Fin 512) (g : Fin 4) (n : Fin 512) : idx_main_v7 (ix4 b r g n) = ix2 (row b r) (gcol g n) :=
  funext fun a => Fin.ext (by
    have hb := b.isLt; have hr := r.isLt; have hg := g.isLt; have hn := n.isLt
    match a with
    | ⟨0, _⟩ => show (((b.val * 512 + r.val) * 4 + g.val) * 512 + n.val) / 2048 = b.val * 512 + r.val; omega
    | ⟨1, _⟩ => show (((b.val * 512 + r.val) * 4 + g.val) * 512 + n.val) % 2048 = 512 * g.val + n.val; omega)

/-- Dropping the sliced unit axis. -/
theorem i9 (b : Fin 64) (r n : Fin 512) : idx_main_v9 (ix3 b r n) = ix4 b r (0 : Fin 1) n :=
  funext fun a => Fin.ext (by
    have hb := b.isLt; have hr := r.isLt; have hn := n.isLt
    match a with
    | ⟨0, _⟩ => show ((b.val * 512 + r.val) * 512 + n.val) / 262144 = b.val; omega
    | ⟨1, _⟩ => show ((b.val * 512 + r.val) * 512 + n.val) / 512 % 512 = r.val; omega
    | ⟨2, _⟩ => rfl
    | ⟨3, _⟩ => show ((b.val * 512 + r.val) * 512 + n.val) % 512 = n.val; omega)
theorem i14 (b : Fin 64) (r n : Fin 512) : idx_main_v14 (ix3 b r n) = ix4 b r (0 : Fin 1) n :=
  funext fun a => Fin.ext (by
    have hb := b.isLt; have hr := r.isLt; have hn := n.isLt
    match a with
    | ⟨0, _⟩ => show ((b.val * 512 + r.val) * 512 + n.val) / 262144 = b.val; omega
    | ⟨1, _⟩ => show ((b.val * 512 + r.val) * 512 + n.val) / 512 % 512 = r.val; omega
    | ⟨2, _⟩ => rfl
    | ⟨3, _⟩ => show ((b.val * 512 + r.val) * 512 + n.val) % 512 = n.val; omega)
theorem i19 (b : Fin 64) (r n : Fin 512) : idx_main_v19 (ix3 b r n) = ix4 b r (0 : Fin 1) n :=
  funext fun a => Fin.ext (by
    have hb := b.isLt; have hr := r.isLt; have hn := n.isLt
    match a with
    | ⟨0, _⟩ => show ((b.val * 512 + r.val) * 512 + n.val) / 262144 = b.val; omega
    | ⟨1, _⟩ => show ((b.val * 512 + r.val) * 512 + n.val) / 512 % 512 = r.val; omega
    | ⟨2, _⟩ => rfl
    | ⟨3, _⟩ => show ((b.val * 512 + r.val) * 512 + n.val) % 512 = n.val; omega)
theorem i24 (b : Fin 64) (r n : Fin 512) : idx_main_v24 (ix3 b r n) = ix4 b r (0 : Fin 1) n :=
  funext fun a => Fin.ext (by
    have hb := b.isLt; have hr := r.isLt; have hn := n.isLt
    match a with
    | ⟨0, _⟩ => show ((b.val * 512 + r.val) * 512 + n.val) / 262144 = b.val; omega
    | ⟨1, _⟩ => show ((b.val * 512 + r.val) * 512 + n.val) / 512 % 512 = r.val; omega
    | ⟨2, _⟩ => rfl
    | ⟨3, _⟩ => show ((b.val * 512 + r.val) * 512 + n.val) % 512 = n.val; omega)

/-- The gate-g slice of the gate axis. -/
theorem i8 (b : Fin 64) (r n : Fin 512) : idx_main_v8 (ix4 b r (0 : Fin 1) n) = ix4 b r (0 : Fin 4) n :=
  funext fun a => Fin.ext (by match a with | ⟨0, _⟩ => rfl | ⟨1, _⟩ => rfl | ⟨2, _⟩ => rfl | ⟨3, _⟩ => rfl)
theorem i13 (b : Fin 64) (r n : Fin 512) : idx_main_v13 (ix4 b r (0 : Fin 1) n) = ix4 b r (1 : Fin 4) n :=
  funext fun a => Fin.ext (by match a with | ⟨0, _⟩ => rfl | ⟨1, _⟩ => rfl | ⟨2, _⟩ => rfl | ⟨3, _⟩ => rfl)
theorem i18 (b : Fin 64) (r n : Fin 512) : idx_main_v18 (ix4 b r (0 : Fin 1) n) = ix4 b r (2 : Fin 4) n :=
  funext fun a => Fin.ext (by match a with | ⟨0, _⟩ => rfl | ⟨1, _⟩ => rfl | ⟨2, _⟩ => rfl | ⟨3, _⟩ => rfl)
theorem i23 (b : Fin 64) (r n : Fin 512) : idx_main_v23 (ix4 b r (0 : Fin 1) n) = ix4 b r (3 : Fin 4) n :=
  funext fun a => Fin.ext (by match a with | ⟨0, _⟩ => rfl | ⟨1, _⟩ => rfl | ⟨2, _⟩ => rfl | ⟨3, _⟩ => rfl)

/-- A bias broadcast over the batch axis is read at (r, n). -/
theorem ib0 (b : Fin 64) (r n : Fin 512) : idx_main_v10 (idx_main_v11 (ix3 b r n)) = ix2 r n :=
  funext fun a => Fin.ext (by match a with | ⟨0, _⟩ => rfl | ⟨1, _⟩ => rfl)
theorem ib1 (b : Fin 64) (r n : Fin 512) : idx_main_v15 (idx_main_v16 (ix3 b r n)) = ix2 r n :=
  funext fun a => Fin.ext (by match a with | ⟨0, _⟩ => rfl | ⟨1, _⟩ => rfl)
theorem ib2 (b : Fin 64) (r n : Fin 512) : idx_main_v20 (idx_main_v21 (ix3 b r n)) = ix2 r n :=
  funext fun a => Fin.ext (by match a with | ⟨0, _⟩ => rfl | ⟨1, _⟩ => rfl)
theorem ib3 (b : Fin 64) (r n : Fin 512) : idx_main_v25 (idx_main_v26 (ix3 b r n)) = ix2 r n :=
  funext fun a => Fin.ext (by match a with | ⟨0, _⟩ => rfl | ⟨1, _⟩ => rfl)

/-! ## The gates, the pre-activations, the activations -/

section
variable (x0 : Arr3 64 512 64) (x1 x2 : Arr3 64 512 512) (x3 x6 x9 x12 : Arr2 64 512) (x4 x5 x7 x8 x10 x11 x13 x14 : Arr2 512 512)

/-- The two products added, reshaped to gates: at (b, r, g, n), the two sums of gate `g`'s pre-activation. -/
theorem gates_apply (b : Fin 64) (r : Fin 512) (g : Fin 4) (n : Fin 512) :
    val_main_v7 (F := Ideal) x0 x1 x3 x4 x6 x7 x9 x10 x12 x13 (ix4 b r g n)
      = (∑ k : Fin 64, x0 (ix3 b r k) * join64 x3 x6 x9 x12 (ix2 k (gcol g n)))
        + (∑ k : Fin 512, x1 (ix3 b r k) * join512 x4 x7 x10 x13 (ix2 k (gcol g n))) := by
  rw [val_main_v7_apply, i7, val_main_v6_apply, val_main_v4_apply, val_main_v5_apply]
  simp only [l4, r4, l5, r5, val_main_v0_apply, val_main_v1_apply, i0, i1]
  rfl

/-- Gate 0 (input), gate 1 (forget), gate 2 (output), gate 3 (candidate): slice, drop the unit axis, add the bias. -/
theorem pre0 (b : Fin 64) (r n : Fin 512) :
    val_main_v12 (F := Ideal) x0 x1 x3 x4 x5 x6 x7 x9 x10 x12 x13 (ix3 b r n)
      = pre x0 x1 (join64 x3 x6 x9 x12) (join512 x4 x7 x10 x13) x5 0 b r n := by
  rw [val_main_v12_apply, val_main_v9_apply, i9, val_main_v8_apply, i8, gates_apply, val_main_v11_apply, val_main_v10_apply, ib0]
  rfl
theorem pre1 (b : Fin 64) (r n : Fin 512) :
    val_main_v17 (F := Ideal) x0 x1 x3 x4 x6 x7 x8 x9 x10 x12 x13 (ix3 b r n)
      = pre x0 x1 (join64 x3 x6 x9 x12) (join512 x4 x7 x10 x13) x8 1 b r n := by
  rw [val_main_v17_apply, val_main_v14_apply, i14, val_main_v13_apply, i13, gates_apply, val_main_v16_apply, val_main_v15_apply, ib1]
  rfl
theorem pre2 (b : Fin 64) (r n : Fin 512) :
    val_main_v22 (F := Ideal) x0 x1 x3 x4 x6 x7 x9 x10 x11 x12 x13 (ix3 b r n)
      = pre x0 x1 (join64 x3 x6 x9 x12) (join512 x4 x7 x10 x13) x11 2 b r n := by
  rw [val_main_v22_apply, val_main_v19_apply, i19, val_main_v18_apply, i18, gates_apply, val_main_v21_apply, val_main_v20_apply, ib2]
  rfl
theorem pre3 (b : Fin 64) (r n : Fin 512) :
    val_main_v27 (F := Ideal) x0 x1 x3 x4 x6 x7 x9 x10 x12 x13 x14 (ix3 b r n)
      = pre x0 x1 (join64 x3 x6 x9 x12) (join512 x4 x7 x10 x13) x14 3 b r n := by
  rw [val_main_v27_apply, val_main_v24_apply, i24, val_main_v23_apply, i23, gates_apply, val_main_v26_apply, val_main_v25_apply, ib3]
  rfl

/-- The spelt-out quotient 1 / (1 + e⁻ˣ) of gates 0, 1 and 2 is the logistic function of the pre-activation. -/
theorem sig0 (b : Fin 64) (r n : Fin 512) :
    val_main_v33 (F := Ideal) x0 x1 x3 x4 x5 x6 x7 x9 x10 x12 x13 (ix3 b r n)
      = Ideal.logistic (pre x0 x1 (join64 x3 x6 x9 x12) (join512 x4 x7 x10 x13) x5 0 b r n) := by
  rw [val_main_v33_apply, val_main_v32_apply, val_main_cst_0_apply, val_main_v31_apply, val_main_v30_apply, val_main_cst_apply,
    val_main_v29_apply, val_main_v28_apply, pre0]
  exact logistic_spelt _
theorem sig1 (b : Fin 64) (r n : Fin 512) :
    val_main_v39 (F := Ideal) x0 x1 x3 x4 x6 x7 x8 x9 x10 x12 x13 (ix3 b r n)
      = Ideal.logistic (pre x0 x1 (join64 x3 x6 x9 x12) (join512 x4 x7 x10 x13) x8 1 b r n) := by
  rw [val_main_v39_apply, val_main_v38_apply, val_main_cst_2_apply, val_main_v37_apply, val_main_v36_apply, val_main_cst_1_apply,
    val_main_v35_apply, val_main_v34_apply, pre1]
  exact logistic_spelt _
theorem sig2 (b : Fin 64) (r n : Fin 512) :
    val_main_v45 (F := Ideal) x0 x1 x3 x4 x6 x7 x9 x10 x11 x12 x13 (ix3 b r n)
      = Ideal.logistic (pre x0 x1 (join64 x3 x6 x9 x12) (join512 x4 x7 x10 x13) x11 2 b r n) := by
  rw [val_main_v45_apply, val_main_v44_apply, val_main_cst_4_apply, val_main_v43_apply, val_main_v42_apply, val_main_cst_3_apply,
    val_main_v41_apply, val_main_v40_apply, pre2]
  exact logistic_spelt _

/-! ## The two results -/

/-- The second result at (b, r, n) is the new cell state. -/
theorem cell_ref (b : Fin 64) (r n : Fin 512) :
    val_main_v49 (F := Ideal) x0 x1 x2 x3 x4 x5 x6 x7 x8 x9 x10 x12 x13 x14 (ix3 b r n)
      = cellAt x0 x1 x2 (join64 x3 x6 x9 x12) (join512 x4 x7 x10 x13) x5 x8 x14 b r n := by
  rw [val_main_v49_apply, val_main_v47_apply, val_main_v48_apply, val_main_v46_apply, sig1, sig0, pre3]
  rfl

/-- The first result at (b, r, n) is the new hidden state. -/
theorem hidden_ref (b : Fin 64) (r n : Fin 512) :
    val_main_v51 (F := Ideal) x0 x1 x2 x3 x4 x5 x6 x7 x8 x9 x10 x11 x12 x13 x14 (ix3 b r n)
      = hiddenAt x0 x1 x2 (join64 x3 x6 x9 x12) (join512 x4 x7 x10 x13) x5 x8 x11 x14 b r n := by
  rw [val_main_v51_apply, val_main_v50_apply, sig2, cell_ref]
  rfl

/-- The results as whole arrays. -/
theorem cell_eq :
    val_main_v49 (F := Ideal) x0 x1 x2 x3 x4 x5 x6 x7 x8 x9 x10 x12 x13 x14
      = cellArr x0 x1 x2 (join64 x3 x6 x9 x12) (join512 x4 x7 x10 x13) x5 x8 x14 :=
  funext fun j => by
    obtain ⟨b, r, n, rfl⟩ : ∃ (b : Fin 64) (r n : Fin 512), j = ix3 b r n := ⟨j 0, j 1, j 2, eq_ix3 j⟩
    exact cell_ref x0 x1 x2 x3 x6 x9 x12 x4 x5 x7 x8 x10 x13 x14 b r n
theorem hidden_eq :
    val_main_v51 (F := Ideal) x0 x1 x2 x3 x4 x5 x6 x7 x8 x9 x10 x11 x12 x13 x14
      = hiddenArr x0 x1 x2 (join64 x3 x6 x9 x12) (join512 x4 x7 x10 x13) x5 x8 x11 x14 :=
  funext fun j => by
    obtain ⟨b, r, n, rfl⟩ : ∃ (b : Fin 64) (r n : Fin 512), j = ix3 b r n := ⟨j 0, j 1, j 2, eq_ix3 j⟩
    exact hidden_ref x0 x1 x2 x3 x6 x9 x12 x4 x5 x7 x8 x10 x11 x13 x14 b r n

end

end Cert.ReferenceIdeal.RefSide

end
-- ==== Proof.lean ====
/-
  The certificate of the LSTM-cell kernel against its reference.

  Five claims. The three programs run to the end, fault nowhere and leave their fifteen argument arrays as launched: for
  the kernel's program (read word by word, and read over the extended reals) this is its pipeline's frame — 64 grid
  points, one batch entry each, behind three concatenations of the gates' weights and biases —, for the reference it is
  its run read back. The idealized kernel is the kernel's own text (nothing was rewritten), so that claim is trivial.
  Over the extended reals, from memories agreeing on the arguments, the kernel's program and the reference end with the
  same two arrays: with W and U the four gates' input and recurrent weights side by side and
      pre g = Σₖ x(b, r, k)·W(k, 512 g + n) + Σₖ h(b, r, k)·U(k, 512 g + n) + bias_g(r, n),
  the new cell state  σ(pre 1)·c + σ(pre 0)·tanh(pre 3)  and the new hidden state  σ(pre 2)·tanh(new cell state).
  The kernel computes each gate from 512 columns of the joined matrices at column offset 512 g, batch entry by batch entry;
  the reference multiplies the batch flattened into 32768 rows by the joined matrices, reshapes the columns into gates and
  slices. Both add in the same grouping; the kernel's logistic operation is the reference's 1 / (1 + e⁻ˣ) by definition.
-/
import proofs.«168691_j18708877541467_2_alg».proof.Defs
import proofs.«168691_j18708877541467_2_alg».proof.Proof.Gen.Kernel
import proofs.«168691_j18708877541467_2_alg».proof.Proof.Gen.KernelIdeal
import proofs.«168691_j18708877541467_2_alg».proof.Proof.Gen.ReferenceIdeal
import proofs.«168691_j18708877541467_2_alg».proof.Proof.Gen.Pre_finite_inputs
import proofs.«168691_j18708877541467_2_alg».proof.Proof.KFrame
import proofs.«168691_j18708877541467_2_alg».proof.Proof.KValue
import proofs.«168691_j18708877541467_2_alg».proof.Proof.RefSide
import Idealize.ShloMosaic.Adequacy
import Idealize.ShloMosaic.Init

noncomputable section

namespace Cert.Proof

open Idealize.ShloMosaic Idealize.SL.Sem

/-- The kernel's program, word by word: its pipeline's frame. -/
theorem frame_k : Cert.frame_Kernel := fun m ρ _ => Cert.Kernel.Fr.frame m ρ

/-- The same program over the extended reals. -/
theorem frame_ki : Cert.frame_KernelIdeal := fun m ρ _ => Cert.KernelIdeal.Fr.frame m ρ

/-- The reference: its run read back, the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Nothing of the kernel's text was rewritten for the reading over the extended reals. -/
theorem preserves : Cert.preserves_Kernel_KernelIdeal := trivial

/-- Both programs end with the new hidden state and the new cell state of the arguments they agree on. -/
theorem algebraic : Cert.algebraic_KernelIdeal_ReferenceIdeal := by
  intro m ρ m' ρ' _ hagree
  refine ⟨fun c => Cert.KernelIdeal.KVal.hiddenG m c, fun c => Cert.KernelIdeal.KVal.cellG m c,
    Cert.KernelIdeal.KVal.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v51_eq, Cert.ReferenceIdeal.RefSide.hidden_eq]
    obtain ⟨a0, a1, a2, a3, a4, a5, a6, a7, a8, a9, a10, a11, a12, a13, a14⟩ := hagree c
    rw [a0, a1, a2, a3, a4, a5, a6, a7, a8, a9, a10, a11, a12, a13, a14]
    rfl
  · rw [Cert.ReferenceIdeal.Read.val_main_v49_eq, Cert.ReferenceIdeal.RefSide.cell_eq]
    obtain ⟨a0, a1, a2, a3, a4, a5, a6, a7, a8, a9, a10, a11, a12, a13, a14⟩ := hagree c
    rw [a0, a1, a2, a3, a4, a5, a6, a7, a8, a9, a10, a12, a13, a14]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
